-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S4x8192 : Shape := ⟨2, ![4, 8192]⟩
abbrev S8192x8192 : Shape := ⟨2, ![8192, 8192]⟩
abbrev S8192 : Shape := ⟨1, ![8192]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S4x8192 : S_.BroadcastsInDim S4x8192 (![] : Fin 0 → Fin S4x8192.rank)
  reducesTo_S4x8192_S_d0_1 : S4x8192.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S1 .f32) (main_arg1 : FVec F S4x8192 .f32) (main_arg2 : FVec F S8192x8192 .f32) (main_arg3 : FVec F S8192 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S4x8192 .f32 := Host.absf main_arg1
  let main_cst_0 : FVec F S_ .f32 := constant S_ .f32 0x7F800000#32
  let main_v5 : FVec F S4x8192 .f32 := broadcastInDim S4x8192 ![] bcast_S_S4x8192 main_cst_0
  let main_v6 : IVec S4x8192 1 := cmpf .olt main_v4 main_v5
  let main_c_1 : IVec S_ 1 := constantI S_ 1 1#1
  let main_v7 : IVec S_ 1 := (fun x v => Host.reduce IntOp.andi x v reducesTo_S4x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S1 : Shape := ⟨1, ![1]⟩
abbrev S4x8192 : Shape := ⟨2, ![4, 8192]⟩
abbrev S8192x8192 : Shape := ⟨2, ![8192, 8192]⟩
abbrev S8192 : Shape := ⟨1, ![8192]⟩
abbrev S4x4 : Shape := ⟨2, ![4, 4]⟩
abbrev S1x8192 : Shape := ⟨2, ![1, 8192]⟩
abbrev S1024x4096 : Shape := ⟨2, ![1024, 4096]⟩
abbrev S1x4096 : Shape := ⟨2, ![1, 4096]⟩
abbrev S4x4096 : Shape := ⟨2, ![4, 4096]⟩
abbrev S4x1024 : Shape := ⟨2, ![4, 1024]⟩

abbrev nBuf : Space → Nat
  | .hbm => 7
  | .vmem => 10
  | .smem => 0
  | _ => 0

abbrev bufTy : (tb : Table) → Fin (tcTables nBuf tb) → BufTy
  | .hbm, ⟨0, _⟩ => ⟨S1, .f32⟩
  | .hbm, ⟨1, _⟩ => ⟨S4x8192, .f32⟩
  | .hbm, ⟨2, _⟩ => ⟨S8192x8192, .f32⟩
  | .hbm, ⟨3, _⟩ => ⟨S8192, .f32⟩
  | .hbm, ⟨4, _⟩ => ⟨S4x4, .f32⟩
  | .hbm, ⟨5, _⟩ => ⟨S1x8192, .f32⟩
  | .hbm, ⟨6, _⟩ => ⟨S4x8192, .f32⟩
  | .local _ .vmem, ⟨0, _⟩ => ⟨S4x8192, .f32⟩
  | .local _ .vmem, ⟨1, _⟩ => ⟨S4x4, .f32⟩
  | .local _ .vmem, ⟨2, _⟩ => ⟨S1024x4096, .f32⟩
  | .local _ .vmem, ⟨3, _⟩ => ⟨S1024x4096, .f32⟩
  | .local _ .vmem, ⟨4, _⟩ => ⟨S1x4096, .f32⟩
  | .local _ .vmem, ⟨5, _⟩ => ⟨S1x4096, .f32⟩
  | .local _ .vmem, ⟨6, _⟩ => ⟨S4x4096, .f32⟩
  | .local _ .vmem, ⟨7, _⟩ => ⟨S4x4096, .f32⟩
  | .local _ .vmem, ⟨8, _⟩ => ⟨S4x4096, .f32⟩
  | .local _ .vmem, ⟨9, _⟩ => ⟨S4x8192, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S4x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192_S1x8192 : S8192.ShapeCasts S1x8192
  inb_S4x4096_S4x4096_0_0 : ∀ a, (![0, 0] : Fin 2 → Nat) a + S4x4096.size a ≤ S4x4096.size a
  h_S4x4096 : 0 < S4x4096.numel
  shapeCasts_S4x4096_S4x4096 : S4x4096.ShapeCasts S4x4096
  inb_S4x4_S4x4_0_0 : ∀ a, (![0, 0] : Fin 2 → Nat) a + S4x4.size a ≤ S4x4.size a
  h_S4x4 : 0 < S4x4.numel
  inb_S4x8192_S4x8192_0_0 : ∀ a, (![0, 0] : Fin 2 → Nat) a + S4x8192.size a ≤ S4x8192.size a
  h_S4x8192 : 0 < S4x8192.numel
  shapeCasts_S4x8192_S4x8192 : S4x8192.ShapeCasts S4x8192
  h_S4x1024 : 0 < S4x1024.numel
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S4x4096 : S1x4096.Broadcasts S4x4096
  dot_S4x4_S4x8192_S4x8192_1_0_0_1_n_n_wf : DotDims.WF S4x4 S4x8192 S4x8192 [1] [0] [0] [1] [] []
  dot_S4x1024_S1024x4096_S4x4096_1_0_0_1_n_n_wf : DotDims.WF S4x1024 S1024x4096 S4x4096 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S4x1024.size a ≤ S4x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x8192.size a ≤ S4x8192.size a
  hwx0_0 : ∀ i : grid0.Coords, EltTy.bits .f32 = 32 ∨ (Rect.block (s := S4x8192) S4x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x4.size a ≤ S4x4.size a
  hwx0_1 : ∀ i : grid0.Coords, EltTy.bits .f32 = 32 ∨ (Rect.block (s := S4x4) S4x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S8192x8192.size a
  hwx0_2 : ∀ i : grid0.Coords, EltTy.bits .f32 = 32 ∨ (Rect.block (s := S8192x8192) S1024x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x8192.size a
  hwx0_3 : ∀ i : grid0.Coords, EltTy.bits .f32 = 32 ∨ (Rect.block (s := S1x8192) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x4096.size a ≤ S4x8192.size a
  hwx0_4 : ∀ i : grid0.Coords, EltTy.bits .f32 = 32 ∨ (Rect.block (s := S4x8192) S4x4096.size (cc0_transform_4 i) (hinb0_4 i)).WholeWords (EltTy.packing .f32)

variable [Facts₀]

def dot_S4x4_S4x8192_S4x8192_1_0_0_1_n_n : DotDims S4x4 S4x8192 S4x8192 where
  lhsContracting := [1]
  rhsContracting := [0]
  lhsNonContracting := [0]
  rhsNonContracting := [1]
  lhsBatch := []
  rhsBatch := []
  wf := dot_S4x4_S4x8192_S4x8192_1_0_0_1_n_n_wf
def dot_S4x1024_S1024x4096_S4x4096_1_0_0_1_n_n : DotDims S4x1024 S1024x4096 S4x4096 where
  lhsContracting := [1]
  rhsContracting := [0]
  lhsNonContracting := [0]
  rhsNonContracting := [1]
  lhsBatch := []
  rhsBatch := []
  wf := dot_S4x1024_S1024x4096_S4x4096_1_0_0_1_n_n_wf

abbrev win0_0 : Pipeline.Window sig grid0 :=
  Pipeline.Window.ofSpec (Memref.whole main_arg1) S4x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_cst) S4x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1 : Shape := ⟨1, ![1]⟩
abbrev S4x8192 : Shape := ⟨2, ![4, 8192]⟩
abbrev S8192x8192 : Shape := ⟨2, ![8192, 8192]⟩
abbrev S8192 : Shape := ⟨1, ![8192]⟩
abbrev S12 : Shape := ⟨1, ![12]⟩
abbrev S12x1 : Shape := ⟨2, ![12, 1]⟩
abbrev S_ : Shape := ⟨0, ![]⟩
abbrev S12x8192 : Shape := ⟨2, ![12, 8192]⟩
abbrev S1x8192 : Shape := ⟨2, ![1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S1, .f32⟩
  | .hbm, ⟨1, _⟩ => ⟨S4x8192, .f32⟩
  | .hbm, ⟨2, _⟩ => ⟨S8192x8192, .f32⟩
  | .hbm, ⟨3, _⟩ => ⟨S8192, .f32⟩
  | .hbm, ⟨4, _⟩ => ⟨S12, .i32⟩
  | .hbm, ⟨5, _⟩ => ⟨S12, .i32⟩
  | .hbm, ⟨6, _⟩ => ⟨S12, .f32⟩
  | .hbm, ⟨7, _⟩ => ⟨S4x8192, .f32⟩
  | .hbm, ⟨8, _⟩ => ⟨S12x1, .f32⟩
  | .hbm, ⟨9, _⟩ => ⟨S_, .i32⟩
  | .hbm, ⟨10, _⟩ => ⟨S12, .i32⟩
  | .hbm, ⟨11, _⟩ => ⟨S12, .i1⟩
  | .hbm, ⟨12, _⟩ => ⟨S_, .i32⟩
  | .hbm, ⟨13, _⟩ => ⟨S12, .i32⟩
  | .hbm, ⟨14, _⟩ => ⟨S12, .i32⟩
  | .hbm, ⟨15, _⟩ => ⟨S12, .i32⟩
  | .hbm, ⟨16, _⟩ => ⟨S12x1, .i32⟩
  | .hbm, ⟨17, _⟩ => ⟨S12x8192, .f32⟩
  | .hbm, ⟨18, _⟩ => ⟨S12x8192, .f32⟩
  | .hbm, ⟨19, _⟩ => ⟨S12x8192, .f32⟩
  | .hbm, ⟨20, _⟩ => ⟨S_, .f32⟩
  | .hbm, ⟨21, _⟩ => ⟨S4x8192, .f32⟩
  | .hbm, ⟨22, _⟩ => ⟨S_, .i32⟩
  | .hbm, ⟨23, _⟩ => ⟨S12, .i32⟩
  | .hbm, ⟨24, _⟩ => ⟨S12, .i1⟩
  | .hbm, ⟨25, _⟩ => ⟨S_, .i32⟩
  | .hbm, ⟨26, _⟩ => ⟨S12, .i32⟩
  | .hbm, ⟨27, _⟩ => ⟨S12, .i32⟩
  | .hbm, ⟨28, _⟩ => ⟨S12, .i32⟩
  | .hbm, ⟨29, _⟩ => ⟨S12x1, .i32⟩
  | .hbm, ⟨30, _⟩ => ⟨S4x8192, .f32⟩
  | .hbm, ⟨31, _⟩ => ⟨S1x8192, .f32⟩
  | .hbm, ⟨32, _⟩ => ⟨S4x8192, .f32⟩
  | .hbm, ⟨33, _⟩ => ⟨S4x8192, .f32⟩
  | .hbm, ⟨34, _⟩ => ⟨S4x8192, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_c_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_c_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S12_S12x1_0 : S12.BroadcastsInDim S12x1 (![0] : Fin 1 → Fin S12x1.rank)
  bcast_S_S12 : S_.BroadcastsInDim S12 (![] : Fin 0 → Fin S12.rank)
  bcast_S12x1_S12x8192_0_1 : S12x1.BroadcastsInDim S12x8192 (![0, 1] : Fin 2 → Fin S12x8192.rank)
  bcast_S_S4x8192 : S_.BroadcastsInDim S4x8192 (![] : Fin 0 → Fin S4x8192.rank)
  bcast_S8192_S1x8192_1 : S8192.BroadcastsInDim S1x8192 (![1] : Fin 1 → Fin S1x8192.rank)
  bcast_S1x8192_S4x8192_0_1 : S1x8192.BroadcastsInDim S4x8192 (![0, 1] : Fin 2 → Fin S4x8192.rank)
  dot_S4x8192_S8192x8192_S4x8192_1_0_0_1_n_n_wf : DotDims.WF S4x8192 S8192x8192 S4x8192 [1] [0] [0] [1] [] []
  gather_S4x8192_S12x1_S12x8192_1_0_n_n_0_1_18192_wf : GatherDims.WF S4x8192 S12x1 S12x8192 [1] [0] [] [0] [] 1 ![1, 8192]
  scatter_S4x8192_S12x1_S12x8192_1_0_0_1_wf : ScatterDims.WF S4x8192 S12x1 S12x8192 [1] [0] [0] 1

variable [Facts₀]

def dot_S4x8192_S8192x8192_S4x8192_1_0_0_1_n_n : DotDims S4x8192 S8192x8192 S4x8192 where
  lhsContracting := [1]
  rhsContracting := [0]
  lhsNonContracting := [0]
  rhsNonContracting := [1]
  lhsBatch := []
  rhsBatch := []
  wf := dot_S4x8192_S8192x8192_S4x8192_1_0_0_1_n_n_wf
def gather_S4x8192_S12x1_S12x8192_1_0_n_n_0_1_18192 : GatherDims S4x8192 S12x1 S12x8192 where
  offsetDims := [1]
  collapsedSliceDims := [0]
  operandBatchingDims := []
  startIndicesBatchingDims := []
  startIndexMap := [0]
  indexVectorDim := 1
  sliceSizes := ![1, 8192]
  wf := gather_S4x8192_S12x1_S12x8192_1_0_n_n_0_1_18192_wf
def scatter_S4x8192_S12x1_S12x8192_1_0_0_1 : ScatterDims S4x8192 S12x1 S12x8192 where
  updateWindowDims := [1]
  insertedWindowDims := [0]
  scatterDimsToOperandDims := [0]
  indexVectorDim := 1
  wf := scatter_S4x8192_S12x1_S12x8192_1_0_0_1_wf

class Facts : Prop extends Facts₀ where

variable [Facts]
-- ==== Proof.KPieces.lean ====
/-
  What one grid point's body leaves behind, case by case, as the body's pure payloads of the blocks it was handed.

  A point `(n, s)` of the grid (column block `n`, tile `s` of the contracted axis) is handed the whole feature array `h`, the weight
  matrix `A`, block `(s, n)` of `W`, block `n` of the bias row, and two carried buffers: the accumulator `acc` ([4,4096]) and
  the aggregated features `g` ([4,8192]). At the first tile it stores `g := A · h` and `acc := 0`, at every tile
  `acc := acc + g[:, 1024 s : 1024 (s+1)] · W_block`, and at the last tile the output block `tanh (acc + bias)`.
  Each buffer is written by whole-buffer stores, so what a case leaves in it is the payload of the last such store, and a
  load of a buffer a store of the same point covered reads that store's payload.
-/
import proofs.«170293_j30769145708811_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

theorem hz : (![0, 0] : Fin 2 → Nat) = fun _ => 0 := funext fun a => by fin_cases a <;> rfl

/-- The [4,1024] run of columns of the aggregated features that the point's tile reads: columns from the point's offset on. -/
abbrev gslice (i : grid0.Coords) (X : Vec F S4x8192 .f32) : Vec F S4x1024 .f32 :=
  View.ld X (Rect.unit (s := S4x8192) (k0_off1 i) S4x1024.size (k0_off1_inb i))

variable (c : Dev nD) (i : grid0.Coords) (a2 : Memref sig .tc .vmem S4x8192 .f32) (h2 : a2.IsWhole) (a3 : Memref sig .tc .vmem S4x4 .f32) (h3 : a3.IsWhole) (a4 : Memref sig .tc .vmem S1024x4096 .f32) (h4 : a4.IsWhole) (a5 : Memref sig .tc .vmem S1x4096 .f32) (h5 : a5.IsWhole) (a6 : Memref sig .tc .vmem S4x4096 .f32) (h6 : a6.IsWhole) (a7 : Memref sig .tc .vmem S4x4096 .f32) (h7 : a7.IsWhole) (a8 : Memref sig .tc .vmem S4x8192 .f32) (h8 : a8.IsWhole)
  (x0 : Vec F S4x8192 .f32) (x1 : Vec F S4x4 .f32) (x2 : Vec F S1024x4096 .f32) (x3 : Vec F S1x4096 .f32)

/-- FIRST TILE, the aggregated features: `A · h`. -/
theorem first_g (hc0 : cond0_0 i) (hc1 : ¬cond0_1 i) :
    sout0_A_1 c i a2 h2 a3 h3 a4 h4 a5 h5 a6 h6 a7 h7 a8 h8 hc0 hc1 x0 x1 x2 x3 = k0_pay2 x1 x0 := by
  unfold sout0_A_1
  rw [View.read_writes_eq_canon _ _ _ (scover0_A_1 c i a2 h2 a3 h3 a4 h4 a5 h5 a6 h6 a7 h7 a8 h8 hc0 hc1 x0 x1 x2 x3)]
  unfold kernelRun0_A
  dsimp only
  sl_unfold_run_names
  rw [View.canon_unit_zero hz]
  simp only [View.readAt_eq_ld, h2.read_unread, h3.read_unread, View.ld_unit_zero (S := S4x4) hz, View.ld_unit_zero (S := S4x8192) hz]

/-- FIRST TILE, the accumulator: the zero block plus the first tile's product, the tile read off the features just stored. -/
theorem first_acc (hc0 : cond0_0 i) (hc1 : ¬cond0_1 i) :
    sout0_A_0 c i a2 h2 a3 h3 a4 h4 a5 h5 a6 h6 a7 h7 a8 h8 hc0 hc1 x0 x1 x2 x3 = k0_pay3 (gslice i (k0_pay2 x1 x0)) x2 k0_pay1 := by
  unfold sout0_A_0
  rw [View.read_writes_eq_canon _ _ _ (scover0_A_0 c i a2 h2 a3 h3 a4 h4 a5 h5 a6 h6 a7 h7 a8 h8 hc0 hc1 x0 x1 x2 x3)]
  unfold kernelRun0_A
  dsimp only
  sl_unfold_run_names
  rw [View.canon_cons_unit_zero (S := S4x4096) hz, View.readCov_unit_zero (S := S4x4096) _ hz]
  simp only [View.readAt_eq_ld]
  rw [View.read_writes_eq_canon _ _ _ (fun y => ⟨_, List.mem_singleton_self _, View.mem_set_unit_zero hz Facts₀.inb_S4x8192_S4x8192_0_0 y⟩),
    View.canon_unit_zero hz]
  simp only [h2.read_unread, h3.read_unread, h4.read_unread, View.ld_unit_zero (S := S4x4) hz, View.ld_unit_zero (S := S4x8192) hz,
    View.ld_unit_zero (S := S1024x4096) hz]

variable (xs0 : Vec F S4x4096 .f32) (xs1 : Vec F S4x8192 .f32)

/-- A MIDDLE TILE, the accumulator: what the tile before left plus this tile's product. -/
theorem mid_acc (hc0 : ¬cond0_0 i) (hc1 : ¬cond0_1 i) :
    sout0_B_0 c i a2 h2 a3 h3 a4 h4 a5 h5 a6 h6 a7 h7 a8 h8 hc0 hc1 x0 x1 x2 x3 xs0 xs1 = k0_pay3 (gslice i xs1) x2 xs0 := by
  unfold sout0_B_0
  rw [View.read_writes_eq_canon _ _ _ (scover0_B_0 c i a2 h2 a3 h3 a4 h4 a5 h5 a6 h6 a7 h7 a8 h8 hc0 hc1 x0 x1 x2 x3 xs0 xs1)]
  unfold kernelRun0_B
  dsimp only
  sl_unfold_run_names
  rw [View.canon_unit_zero hz]
  simp only [View.readAt_eq_ld, h4.read_unread, h7.read_unread, h8.read_unread, View.ld_unit_zero (S := S1024x4096) hz,
    View.ld_unit_zero (S := S4x4096) hz]

/-- THE LAST TILE, the accumulator: the same step. -/
theorem last_acc (hc0 : ¬cond0_0 i) (hc1 : cond0_1 i) :
    sout0_C_0 c i a2 h2 a3 h3 a4 h4 a5 h5 a6 h6 a7 h7 a8 h8 hc0 hc1 x0 x1 x2 x3 xs0 xs1 = k0_pay3 (gslice i xs1) x2 xs0 := by
  unfold sout0_C_0
  rw [View.read_writes_eq_canon _ _ _ (scover0_C_0 c i a2 h2 a3 h3 a4 h4 a5 h5 a6 h6 a7 h7 a8 h8 hc0 hc1 x0 x1 x2 x3 xs0 xs1)]
  unfold kernelRun0_C
  dsimp only
  sl_unfold_run_names
  rw [View.canon_unit_zero hz]
  simp only [View.readAt_eq_ld, h4.read_unread, h7.read_unread, h8.read_unread, View.ld_unit_zero (S := S1024x4096) hz,
    View.ld_unit_zero (S := S4x4096) hz]

/-- THE LAST TILE, the output block: `tanh` of the finished accumulator plus the bias row. -/
theorem last_out (hc0 : ¬cond0_0 i) (hc1 : cond0_1 i) :
    out0_C_4 c i a2 h2 a3 h3 a4 h4 a5 h5 a6 h6 a7 h7 a8 h8 hc0 hc1 x0 x1 x2 x3 xs0 xs1 = k0_pay4 (k0_pay3 (gslice i xs1) x2 xs0) x3 := by
  unfold out0_C_4
  rw [View.read_writes_eq_canon _ _ _ (cover0_C_4 c i a2 h2 a3 h3 a4 h4 a5 h5 a6 h6 a7 h7 a8 h8 hc0 hc1 x0 x1 x2 x3 xs0 xs1)]
  unfold kernelRun0_C
  dsimp only
  sl_unfold_run_names
  rw [View.canon_unit_zero hz, View.readCov_unit_zero (S := S4x4096) _ hz]
  simp only [View.readAt_eq_ld, h4.read_unread, h5.read_unread, h7.read_unread, h8.read_unread, View.ld_unit_zero (S := S1024x4096) hz,
    View.ld_unit_zero (S := S4x4096) hz, View.ld_unit_zero (S := S1x4096) hz]

end Cert.KernelIdeal.KVal

end
-- ==== Proof.Spec.lean ====
/-
  One graph-convolution layer on the fixed four-node graph, as functions of the argument arrays over the extended reals.

  The graph has twelve directed edges `e` (eight of the club graph and four self-loops), edge `e` going from node `rowT e` to
  node `colT e` with weight `nrmT e` (the symmetric degree normalisation, a float constant). Written as a dense matrix the weights
  are `A[c, r]` = the weight of the edge from `r` to `c`, zero when there is none; each ordered pair of nodes carries at most one edge,
  so every entry of `A` is one of the twelve constants or zero (`aW`, the same words).

  Two spellings of the layer `tanh (A · (h · W) + b)`:
  * `specK`: aggregate first, `g = A · h`, then `g · W` accumulated over eight consecutive tiles of 1024 positions of the contracted
    axis, then the bias and `tanh`;
  * `specR`: transform first, `xw = h · W`, then for node `c` the sum over the edges arriving at `c` of weight times the source row
    of `xw`, added to zero, then the bias and `tanh`.
  That the two agree on real inputs is the companion module's theorem.
-/
import Idealize.ShloMosaic.PureOps.Ideal
import Idealize.ShloMosaic.Lib.ValueIdx

noncomputable section

open scoped BigOperators

namespace Cert.GcnSpec

open Idealize.ShloMosaic Idealize.ShloMosaic.ValueIdx

/-- The source node of edge `e`. -/
def rowT : Fin 12 → Fin 4 := ![0, 0, 0, 1, 2, 2, 3, 3, 0, 1, 2, 3]
/-- The target node of edge `e`. -/
def colT : Fin 12 → Fin 4 := ![1, 2, 3, 0, 0, 3, 0, 2, 0, 1, 2, 3]
/-- The weight of edge `e`, as the float word both programs hold. -/
def nrmW : Fin 12 → BitVec 32 :=
  ![0x3EB504F3#32, 0x3E93CD3A#32, 0x3E93CD3A#32, 0x3EB504F3#32, 0x3E93CD3A#32, 0x3EAAAAAA#32, 0x3E93CD3A#32, 0x3EAAAAAA#32,
    0x3E800000#32, 0x3EFFFFFF#32, 0x3EAAAAAA#32, 0x3EAAAAAA#32]
/-- The weight of edge `e` as an extended real. -/
def nrmT (e : Fin 12) : EReal := Ideal.ofBits .f32 (nrmW e)
/-- The dense weight matrix, entry `(c, r)`: the word of the edge from `r` to `c`, the zero word when there is none. -/
def aW : Fin 4 → Fin 4 → BitVec 32 :=
  ![![0x3E800000#32, 0x3EB504F3#32, 0x3E93CD3A#32, 0x3E93CD3A#32],
    ![0x3EB504F3#32, 0x3EFFFFFF#32, 0x00000000#32, 0x00000000#32],
    ![0x3E93CD3A#32, 0x00000000#32, 0x3EAAAAAA#32, 0x3EAAAAAA#32],
    ![0x3E93CD3A#32, 0x00000000#32, 0x3EAAAAAA#32, 0x3EAAAAAA#32]]

/-- Position `1024·s + k` of the contracted axis: entry `k` of tile `s`. -/
def kpos (s : Fin 8) (k : Fin 1024) : Fin 8192 := ⟨1024 * s.val + k.val, by have := s.isLt; have := k.isLt; omega⟩
/-- Column `4096·n + q`: entry `q` of column block `n`. -/
def cpos (n : Fin 2) (q : Fin 4096) : Fin 8192 := ⟨4096 * n.val + q.val, by have := n.isLt; have := q.isLt; omega⟩

variable (A : (⟨2, ![4, 4]⟩ : Shape).Idx → EReal) (h : (⟨2, ![4, 8192]⟩ : Shape).Idx → EReal)
  (W : (⟨2, ![8192, 8192]⟩ : Shape).Idx → EReal) (b : (⟨1, ![8192]⟩ : Shape).Idx → EReal)

/-- The aggregated features `g = A · h` at node `c`, feature `k`. -/
def agg (c : Fin 4) (k : Fin 8192) : EReal := ∑ r : Fin 4, A (ix2 c r) * h (ix2 r k)
/-- Tile `s`'s share of `(g · W)[c, j]`. -/
def tile (c : Fin 4) (j : Fin 8192) (s : Fin 8) : EReal := ∑ k : Fin 1024, agg A h c (kpos s k) * W (ix2 (kpos s k) j)
/-- `(g · W)[c, j]` as the sum of the eight tiles' shares. -/
def preK (c : Fin 4) (j : Fin 8192) : EReal := ∑ s : Fin 8, tile A h W c j s
/-- Aggregate, transform tile by tile, add the bias, `tanh`. -/
def specK (c : Fin 4) (j : Fin 8192) : EReal := Ideal.tanh (preK A h W c j + b (ix1 j))

/-- The transformed features `xw = h · W` at node `r`, feature `j`. -/
def xw (r : Fin 4) (j : Fin 8192) : EReal := ∑ k : Fin 8192, h (ix2 r k) * W (ix2 k j)
/-- Zero plus the weighted source rows of the edges arriving at node `c`. -/
def preR (c : Fin 4) (j : Fin 8192) : EReal := 0 + ∑ e : Fin 12, if colT e = c then nrmT e * xw h W (rowT e) j else 0
/-- Transform, aggregate along the edges, add the bias, `tanh`. -/
def specR (c : Fin 4) (j : Fin 8192) : EReal := Ideal.tanh (preR h W c j + b (ix1 j))

/-- `specK` as an array. -/
def arrK : (⟨2, ![4, 8192]⟩ : Shape).Idx → EReal := fun i => specK A h W b (i 0) (i 1)
/-- `specR` as an array. -/
def arrR : (⟨2, ![4, 8192]⟩ : Shape).Idx → EReal := fun i => specR h W b (i 0) (i 1)

theorem arrK_ix2 (c : Fin 4) (j : Fin 8192) : arrK A h W b (ix2 c j) = specK A h W b c j := rfl
theorem arrR_ix2 (c : Fin 4) (j : Fin 8192) : arrR h W b (ix2 c j) = specR h W b c j := rfl

end Cert.GcnSpec

end
-- ==== Proof.KBlocks.lean ====
/-
  Where each block a grid point is handed sits in its array.

  The grid has sixteen points `t`, in row-major order point `t` is column block `n = t / 8`, tile `s = t % 8`. The feature array
  and the weight matrix are handed whole at every point; the `W` block at point `t` is rows `1024 s …`, columns `4096 n …`; the
  bias row's and the output's block is columns `4096 n …`; and the tile of the aggregated features the body reads starts at column
  `1024 s`. These relations between the printed index maps and `t` are decided once over the sixteen points; with them a block's
  entry is an entry of the array as the region finds it.
-/
import proofs.«170293_j30769145708811_2_alg».proof.Proof.Gen.KernelIdeal.Frame
import proofs.«170293_j30769145708811_2_alg».proof.Proof.KPieces
import proofs.«170293_j30769145708811_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.GcnSpec

variable {F : FTy → Type} [FloatOps F]
variable (m : (ℓ : Loc nD τ sig) → Buf (Elt F) ℓ)

/-- The tile of the contracted axis point `t` works on. -/
def sOf (t : Fin cfg0.N) : Fin 8 := ⟨t.val % 8, Nat.mod_lt _ (by decide)⟩
/-- The column block point `t` works on. -/
def nOf (t : Fin cfg0.N) : Fin 2 := ⟨t.val / 8, by have h := t.isLt; have hN : cfg0.N = 16 := N_0; omega⟩

/-- The printed index maps and the tile offset as functions of the point, decided over the grid. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val % 8 ∧ win0_2.index t (1 : Fin 2) = t.val / 8
    ∧ win0_3.index t (0 : Fin 2) = 0 ∧ win0_3.index t (1 : Fin 2) = t.val / 8
    ∧ win0_4.index t (0 : Fin 2) = 0 ∧ win0_4.index t (1 : Fin 2) = t.val / 8
    ∧ k0_off1 (grid0.coords t) (0 : Fin 2) = 0 ∧ k0_off1 (grid0.coords t) (1 : Fin 2) = 1024 * (t.val % 8) :=
  (by decide +kernel : ∀ t : Fin grid0.N, _)

/-- The feature block is the feature array. -/
theorem blk_h (c : Dev nD) (t : Fin cfg0.N) (p : Fin 4) (k : Fin 8192) :
    (iblk m c 0 t : Vec F S4x8192 .f32) (ix2 p k) = V m c main_arg1 (ix2 p k) := by
  show V m c main_arg1 (((cfg0.win 0).blk t).view.emb (ix2 p k)) = _
  refine congrArg (V m c main_arg1) (funext fun a => Fin.ext ?_)
  obtain ⟨e0, e1, -⟩ := idx_facts t
  match a with
  | ⟨0, _⟩ => show win0_0.index t (0 : Fin 2) * 4 + 1 * p.val = p.val; rw [e0]; omega
  | ⟨1, _⟩ => show win0_0.index t (1 : Fin 2) * 8192 + 1 * k.val = k.val; rw [e1]; omega

/-- The weight block is the weight matrix. -/
theorem blk_A (c : Dev nD) (t : Fin cfg0.N) (p r : Fin 4) :
    (iblk m c 1 t : Vec F S4x4 .f32) (ix2 p r) = V m c main_cst (ix2 p r) := by
  show V m c main_cst (((cfg0.win 1).blk t).view.emb (ix2 p r)) = _
  refine congrArg (V m c main_cst) (funext fun a => Fin.ext ?_)
  obtain ⟨-, -, e0, e1, -⟩ := idx_facts t
  match a with
  | ⟨0, _⟩ => show win0_1.index t (0 : Fin 2) * 4 + 1 * p.val = p.val; rw [e0]; omega
  | ⟨1, _⟩ => show win0_1.index t (1 : Fin 2) * 4 + 1 * r.val = r.val; rw [e1]; omega

/-- The `W` block at point `t`: rows of tile `s`, columns of block `n`. -/
theorem blk_W (c : Dev nD) (t : Fin cfg0.N) (k : Fin 1024) (q : Fin 4096) :
    (iblk m c 2 t : Vec F S1024x4096 .f32) (ix2 k q) = V m c main_arg2 (ix2 (kpos (sOf t) k) (cpos (nOf t) q)) := by
  show V m c main_arg2 (((cfg0.win 2).blk t).view.emb (ix2 k q)) = _
  refine congrArg (V m c main_arg2) (funext fun a => Fin.ext ?_)
  obtain ⟨-, -, -, -, e0, e1, -⟩ := idx_facts t
  match a with
  | ⟨0, _⟩ => show win0_2.index t (0 : Fin 2) * 1024 + 1 * k.val = 1024 * (t.val % 8) + k.val; rw [e0]; omega
  | ⟨1, _⟩ => show win0_2.index t (1 : Fin 2) * 4096 + 1 * q.val = 4096 * (t.val / 8) + q.val; rw [e1]; omega

/-- The bias block at point `t`: columns of block `n` of the bias row. -/
theorem blk_b (c : Dev nD) (t : Fin cfg0.N) (q : Fin 4096) :
    (iblk m c 3 t : Vec F S1x4096 .f32) (ix2 0 q) = V m c main_v0 (ix2 0 (cpos (nOf t) q)) := by
  show V m c main_v0 (((cfg0.win 3).blk t).view.emb (ix2 0 q)) = _
  refine congrArg (V m c main_v0) (funext fun a => Fin.ext ?_)
  obtain ⟨-, -, -, -, -, -, e0, e1, -⟩ := idx_facts t
  match a with
  | ⟨0, _⟩ => show win0_3.index t (0 : Fin 2) * 1 + 1 * 0 = 0; rw [e0]
  | ⟨1, _⟩ => show win0_3.index t (1 : Fin 2) * 4096 + 1 * q.val = 4096 * (t.val / 8) + q.val; rw [e1]; omega

/-- The tile of an [4,8192] array the body reads at point `t`: its columns `1024 s + k`. -/
theorem gslice_apply (t : Fin cfg0.N) (X : Vec F S4x8192 .f32) (p : Fin 4) (k : Fin 1024) :
    gslice (grid0.coords t) X (ix2 p k) = X (ix2 p (kpos (sOf t) k)) := by
  show X ((Rect.unit (s := S4x8192) (k0_off1 (grid0.coords t)) S4x1024.size (k0_off1_inb (grid0.coords t))).idx (ix2 p k)) = _
  refine congrArg X (funext fun a => Fin.ext ?_)
  obtain ⟨-, -, -, -, -, -, -, -, -, -, e0, e1⟩ := idx_facts t
  match a with
  | ⟨0, _⟩ => show k0_off1 (grid0.coords t) (0 : Fin 2) + 1 * p.val = p.val; rw [e0]; omega
  | ⟨1, _⟩ => show k0_off1 (grid0.coords t) (1 : Fin 2) + 1 * k.val = 1024 * (t.val % 8) + k.val; rw [e1]; omega

end Cert.KernelIdeal.KVal

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.KPay.lean ====
/-
  The body's four payloads read at one entry, over the extended reals.

  * the reset block is zero everywhere;
  * the aggregation `A · h` at `(p, k)` is `∑ r, A[p, r] · h[r, k]` (a plain matrix product into the zero accumulator; the
    requested precision does not enter: every product and sum is exact);
  * the accumulation step at `(p, q)` is the old accumulator plus `∑ k, g[p, k] · w[k, q]` (the narrowing of both operands
    to a shorter float format is the identity here);
  * the output at `(p, q)` is `tanh (acc[p, q] + bias[0, q])`, the one bias row serving the four rows.
-/
import proofs.«170293_j30769145708811_2_alg».proof.Proof.Gen.KernelIdeal.Skeleton
import proofs.«170293_j30769145708811_2_alg».proof.Proof.LibDotCols
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.KVal

open Cert.KernelIdeal Cert.KernelIdeal.Gen

/-- The reset block is zero. -/
theorem pay1_apply (p : Fin 4) (q : Fin 4096) : (k0_pay1 (F := Ideal)) (ix2 p q) = (0 : EReal) := by
  unfold k0_pay1
  rw [shapeCast_self]
  show Ideal.ofBits .f32 0x00000000#32 = 0
  exact Ideal.ofBits_zero_f32

/-- The aggregation at `(p, k)`. -/
theorem pay2_apply (x1 : Vec Ideal S4x4 .f32) (x0 : Vec Ideal S4x8192 .f32) (p : Fin 4) (k : Fin 8192) :
    k0_pay2 (F := Ideal) x1 x0 (ix2 p k) = ∑ r : Fin 4, (x1 (ix2 p r) : EReal) * x0 (ix2 r k) := by
  unfold k0_pay2
  rw [shapeCast_self]
  exact Cert.Lib.DotCols.matmul_cols_apply (M := 4) (K := 4) (N := 8192) dot_S4x4_S4x8192_S4x8192_1_0_0_1_n_n rfl (some .fp32) x1 x0 p k

/-- The accumulation step at `(p, q)`. -/
theorem pay3_apply (v6 : Vec Ideal S4x1024 .f32) (v8 : Vec Ideal S1024x4096 .f32) (v10 : Vec Ideal S4x4096 .f32) (p : Fin 4) (q : Fin 4096) :
    k0_pay3 (F := Ideal) v6 v8 v10 (ix2 p q) = (v10 (ix2 p q) : EReal) + ∑ k : Fin 1024, (v6 (ix2 p k) : EReal) * v8 (ix2 k q) := by
  unfold k0_pay3
  rw [shapeCast_self]
  show (v10 (ix2 p q) : EReal) + _ = _
  refine congrArg (fun z => (v10 (ix2 p q) : EReal) + z) ?_
  exact Cert.Lib.DotCols.matmul_cols_apply (M := 4) (K := 1024) (N := 4096) dot_S4x1024_S1024x4096_S4x4096_1_0_0_1_n_n rfl none
    (truncf .bf16 v6 Facts₀.bitsLt_bf16_f32) (truncf .bf16 v8 Facts₀.bitsLt_bf16_f32) p q

/-- The output at `(p, q)`. -/
theorem pay4_apply (v19 : Vec Ideal S4x4096 .f32) (v20 : Vec Ideal S1x4096 .f32) (p : Fin 4) (q : Fin 4096) :
    k0_pay4 (F := Ideal) v19 v20 (ix2 p q) = Ideal.tanh ((v19 (ix2 p q) : EReal) + v20 (ix2 0 q)) := by
  unfold k0_pay4
  rw [shapeCast_self]
  show Ideal.tanh ((v19 (ix2 p q) : EReal) + broadcastTo S4x4096 v20 Facts₀.broadcasts_S1x4096_S4x4096 (ix2 p q)) = _
  rw [broadcastTo_1b_ab_apply]

end Cert.KernelIdeal.KVal

end
-- ==== Proof.KAcc.lean ====
/-
  The two carried buffers after every grid point, over the extended reals.

  Within one column block `n` the eight points `s = 0 … 7` run in order. The first stores the aggregated features
  `g = A · h` (an array that does not depend on the point) and leaves in the accumulator the first tile's share of `g · W`; every
  later point leaves `g` as it found it and adds its own tile's share to the accumulator. So after point `s` the accumulator at
  `(p, q)` is the sum of the shares of tiles `0 … s` — by induction on the point's position in the grid, the first point of
  each column block starting the sum afresh.
-/
import proofs.«170293_j30769145708811_2_alg».proof.Proof.Gen.KernelIdeal.Frame
import proofs.«170293_j30769145708811_2_alg».proof.Proof.KPieces
import proofs.«170293_j30769145708811_2_alg».proof.Proof.KBlocks
import proofs.«170293_j30769145708811_2_alg».proof.Proof.KPay
import proofs.«170293_j30769145708811_2_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.GcnSpec

variable (m : (ℓ : Loc nD τ sig) → Buf (Elt Ideal) ℓ)

/-- The weight matrix, the features, the weights `W` and the bias row as the region finds them. -/
abbrev Aarr (c : Dev nD) : (⟨2, ![4, 4]⟩ : Shape).Idx → EReal := V m c main_cst
abbrev Harr (c : Dev nD) : (⟨2, ![4, 8192]⟩ : Shape).Idx → EReal := V m c main_arg1
abbrev Warr (c : Dev nD) : (⟨2, ![8192, 8192]⟩ : Shape).Idx → EReal := V m c main_arg2
abbrev Brow (c : Dev nD) : (⟨2, ![1, 8192]⟩ : Shape).Idx → EReal := V m c main_v0

/-- The aggregated features `g = A · h` as an array. -/
def gArr (c : Dev nD) : Vec Ideal S4x8192 .f32 := fun i => agg (Aarr m c) (Harr m c) (i 0) (i 1)
theorem gArr_ix2 (c : Dev nD) (p : Fin 4) (k : Fin 8192) : gArr m c (ix2 p k) = agg (Aarr m c) (Harr m c) p k := rfl

/-- Tile `s`'s share of `(g · W)[p, 4096 n + q]`, for a natural `s` (zero past the eight tiles). -/
def tl (c : Dev nD) (nb : Fin 2) (p : Fin 4) (q : Fin 4096) (s : ℕ) : EReal :=
  if h : s < 8 then tile (Aarr m c) (Harr m c) (Warr m c) p (cpos nb q) ⟨s, h⟩ else 0
theorem tl_eq (c : Dev nD) (nb : Fin 2) (p : Fin 4) (q : Fin 4096) (s : Fin 8) :
    tl m c nb p q s.val = tile (Aarr m c) (Harr m c) (Warr m c) p (cpos nb q) s := by
  unfold tl; rw [dif_pos s.isLt]

/-- What the first point of a column block stores as aggregated features is `g`. -/
theorem g_first (c : Dev nD) (t : Fin cfg0.N) : k0_pay2 (F := Ideal) (iblk m c 1 t) (iblk m c 0 t) = gArr m c := by
  funext i
  obtain ⟨p, k, rfl⟩ : ∃ (p : Fin 4) (k : Fin 8192), i = ix2 p k := ⟨i 0, i 1, eq_ix2 i⟩
  refine (pay2_apply (iblk m c 1 t) (iblk m c 0 t) p k).trans ?_
  rw [gArr_ix2]
  unfold agg
  exact Finset.sum_congr rfl fun r _ => congrArg₂ (· * ·) (blk_A m c t p r) (blk_h m c t r k)

/-- ONE ACCUMULATION STEP at point `t`, from the aggregated features `g` and an accumulator `acc0`: the old entry plus the
    point's tile's share. -/
theorem step_val (c : Dev nD) (t : Fin cfg0.N) (acc0 : Vec Ideal S4x4096 .f32) (p : Fin 4) (q : Fin 4096) :
    k0_pay3 (F := Ideal) (gslice (grid0.coords t) (gArr m c)) (iblk m c 2 t) acc0 (ix2 p q)
      = (acc0 (ix2 p q) : EReal) + tl m c (nOf t) p q (t.val % 8) := by
  refine (pay3_apply (gslice (grid0.coords t) (gArr m c)) (iblk m c 2 t) acc0 p q).trans ?_
  refine congrArg (fun z => (acc0 (ix2 p q) : EReal) + z) ?_
  refine Eq.trans ?_ (tl_eq m c (nOf t) p q (sOf t)).symm
  unfold tile
  exact Finset.sum_congr rfl fun k _ =>
    congrArg₂ (· * ·) ((gslice_apply t (gArr m c) p k).trans (gArr_ix2 m c p _)) (blk_W m c t k q)

/-- THE FIRST POINT of a column block: `g` stored, the accumulator at the first tile's share. -/
theorem first_pt (c : Dev nD) (t : Fin cfg0.N) (h0 : t.val % 8 = 0) :
    (outsAt0 m c t.val t.isLt).2.2 = gArr m c
    ∧ ∀ (p : Fin 4) (q : Fin 4096), ((outsAt0 m c t.val t.isLt).2.1 : Vec Ideal S4x4096 .f32) (ix2 p q) = tl m c (nOf t) p q (t.val % 8) := by
  have h1 : ¬t.val % 8 = 7 := by omega
  rw [outsAt0_A m c t h0 h1]
  dsimp only
  refine ⟨(first_g (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) ((hcond0_0 t).mpr h0) (fun h => h1 ((hcond0_1 t).mp h))).trans (g_first m c t), fun p q => ?_⟩
  refine (congrFun (first_acc (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) ((hcond0_0 t).mpr h0) (fun h => h1 ((hcond0_1 t).mp h))) (ix2 p q)).trans ?_
  rw [g_first m c t]
  refine (step_val m c t (k0_pay1 (F := Ideal)) p q).trans ?_
  rw [pay1_apply, zero_add]

/-- A LATER POINT of a column block: `g` carried over, the accumulator gaining the point's tile's share. -/
theorem next_pt (c : Dev nD) (t : Fin cfg0.N) (h0 : ¬t.val % 8 = 0)
    (hprev : (outsAt0 m c (t.val - 1) (Nat.lt_of_le_of_lt (Nat.sub_le _ _) t.isLt)).2.2 = gArr m c) :
    (outsAt0 m c t.val t.isLt).2.2 = gArr m c
    ∧ ∀ (p : Fin 4) (q : Fin 4096), ((outsAt0 m c t.val t.isLt).2.1 : Vec Ideal S4x4096 .f32) (ix2 p q)
        = (((outsAt0 m c (t.val - 1) (Nat.lt_of_le_of_lt (Nat.sub_le _ _) t.isLt)).2.1 : Vec Ideal S4x4096 .f32) (ix2 p q) : EReal) + tl m c (nOf t) p q (t.val % 8) := by
  by_cases h1 : t.val % 8 = 7
  · rw [outsAt0_C m c t h0 h1]
    dsimp only
    refine ⟨hprev, fun p q => ?_⟩
    refine (congrFun (last_acc (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1)) (ix2 p q)).trans ?_
    rw [hprev]
    exact step_val m c t _ p q
  · rw [outsAt0_B m c t h0 h1]
    dsimp only
    refine ⟨hprev, fun p q => ?_⟩
    refine (congrFun (mid_acc (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) (fun h => h1 ((hcond0_1 t).mp h))) (ix2 p q)).trans ?_
    rw [hprev]
    exact step_val m c t _ p q

/-- AFTER THE POINT AT POSITION `n`: the aggregated features are `g`, and the accumulator at `(p, q)` is the sum of the shares
    of the tiles up to the point's own. -/
theorem acc_run (c : Dev nD) : ∀ (n : ℕ) (hn : n < cfg0.N),
    (outsAt0 m c n hn).2.2 = gArr m c
    ∧ ∀ (p : Fin 4) (q : Fin 4096), ((outsAt0 m c n hn).2.1 : Vec Ideal S4x4096 .f32) (ix2 p q)
        = ∑ s ∈ Finset.range (n % 8 + 1), tl m c (nOf ⟨n, hn⟩) p q s
  | 0, hn => by
    obtain ⟨a, b⟩ := first_pt m c ⟨0, hn⟩ rfl
    refine ⟨a, fun p q => (b p q).trans ?_⟩
    show tl m c (nOf ⟨0, hn⟩) p q (0 % 8) = ∑ s ∈ Finset.range (0 % 8 + 1), tl m c (nOf ⟨0, hn⟩) p q s
    rw [show 0 % 8 = 0 from rfl, Finset.sum_range_one]
  | n + 1, hn => by
    obtain ⟨ih2, ih1⟩ := acc_run c n (Nat.lt_of_succ_lt hn)
    by_cases h0 : (n + 1) % 8 = 0
    · obtain ⟨a, b⟩ := first_pt m c ⟨n + 1, hn⟩ h0
      refine ⟨a, fun p q => (b p q).trans ?_⟩
      show tl m c (nOf ⟨n + 1, hn⟩) p q ((n + 1) % 8) = ∑ s ∈ Finset.range ((n + 1) % 8 + 1), tl m c (nOf ⟨n + 1, hn⟩) p q s
      rw [h0, Finset.sum_range_one]
    · obtain ⟨a, b⟩ := next_pt m c ⟨n + 1, hn⟩ h0 ih2
      refine ⟨a, fun p q => (b p q).trans ?_⟩
      have hnb : nOf ⟨n + 1, hn⟩ = nOf ⟨n, Nat.lt_of_succ_lt hn⟩ := Fin.ext (by show (n + 1) / 8 = n / 8; omega)
      have hs : (n + 1) % 8 = n % 8 + 1 := by omega
      show ((outsAt0 m c n _).2.1 : Vec Ideal S4x4096 .f32) (ix2 p q) + tl m c (nOf ⟨n + 1, hn⟩) p q ((n + 1) % 8)
        = ∑ s ∈ Finset.range ((n + 1) % 8 + 1), tl m c (nOf ⟨n + 1, hn⟩) p q s
      rw [ih1 p q, hnb, hs, Finset.sum_range_succ _ (n % 8 + 1)]

/-- AFTER THE LAST POINT of a column block the accumulator holds `(g · W)[p, 4096 n + q]`, all eight tiles' shares. -/
theorem acc_last (c : Dev nD) (t : Fin cfg0.N) (h7 : t.val % 8 = 7) (p : Fin 4) (q : Fin 4096) :
    ((outsAt0 m c t.val t.isLt).2.1 : Vec Ideal S4x4096 .f32) (ix2 p q) = preK (Aarr m c) (Harr m c) (Warr m c) p (cpos (nOf t) q) := by
  refine ((acc_run m c t.val t.isLt).2 p q).trans ?_
  rw [h7]
  unfold preK
  rw [Finset.sum_range]
  exact Finset.sum_congr rfl fun s _ => tl_eq m c (nOf t) p q s

end Cert.KernelIdeal.KVal

end
-- ==== Proof.KFinal.lean ====
/-
  The kernel's result array, entry by entry, over the extended reals.

  Only the last point of each column block `n` writes its output block back: `tanh (acc + bias)` with the finished accumulator,
  so entry `(p, q)` of block `n` is `tanh ((g · W)[p, 4096 n + q] + b[4096 n + q])`: the layer's `specK` at `(p, 4096 n + q)`.
  The two blocks tile the [4,8192] result array, so the array ends as `specK` everywhere. The weight matrix the region finds
  is the dense constant (the words `aW`), and the bias row is the bias vector recast to one row.
-/
import proofs.«170293_j30769145708811_2_alg».proof.Proof.Gen.KernelIdeal.Value
import proofs.«170293_j30769145708811_2_alg».proof.Proof.KAcc
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.GcnSpec

variable (m : (ℓ : Loc nD τ sig) → Buf (Elt Ideal) ℓ) (ρ : Dev nD → PrngReg)

/-- The bias vector as launched. -/
abbrev bvec (c : Dev nD) : (⟨1, ![8192]⟩ : Shape).Idx → EReal := m ((c : Thread nD τ).loc main_arg3)

/-- The dense constant's word at `(p, r)`. -/
theorem lit_eq (p r : Fin 4) : lit0 (S4x4.rowMajor (ix2 p r)) = aW p r := by
  have e : S4x4.rowMajor (ix2 p r) = ⟨p.val * 4 + r.val, by have := p.isLt; have := r.isLt; show _ < 16; omega⟩ :=
    Fin.ext (Shape.rowMajor_val_two (ix2 p r))
  rw [e]
  fin_cases p <;> fin_cases r <;> rfl

/-- The weight matrix the region finds: the dense constant. -/
theorem A_apply (c : Dev nD) (p r : Fin 4) : Aarr m c (ix2 p r) = Ideal.ofBits .f32 (aW p r) := by
  have e : (V m c main_cst : S4x4.Idx → EReal) = fun i => Ideal.ofBits .f32 (lit0 (S4x4.rowMajor i)) := by
    dsimp only [Gen.V, Gen.hostOps0]; after_results; rfl
  show (V m c main_cst : S4x4.Idx → EReal) (ix2 p r) = _
  rw [e]
  exact congrArg (Ideal.ofBits .f32) (lit_eq p r)

/-- The bias row the region finds: the bias vector recast to one row. -/
theorem b_apply (c : Dev nD) (j : Fin 8192) : Brow m c (ix2 0 j) = bvec m c (ix1 j) := by
  have e : (V m c main_v0 : S1x8192.Idx → EReal) = shapeCast S1x8192 (m ((c : Thread nD τ).loc main_arg3)) Facts₀.shapeCasts_S8192_S1x8192 := by
    dsimp only [Gen.V, Gen.hostOps0]; after_results; rfl
  show (V m c main_v0 : S1x8192.Idx → EReal) (ix2 0 j) = _
  rw [e]
  refine shapeCast_apply _ _ (ix2 0 j) (ix1 j) ?_
  rw [Shape.rowMajor_val_one, Shape.rowMajor_val_two]
  show j.val = 0 * 8192 + j.val
  omega

/-- The layer `specK` of the arrays as the region finds them, as contents of the result array. -/
abbrev result (c : Dev nD) : Buf (Elt Ideal) ((c : Thread nD τ).loc main_v1) :=
  arrK (Aarr m c) (Harr m c) (Warr m c) (bvec m c)

/-- WHAT A FLUSHING POINT WRITES BACK is its block of the layer. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  have h0 : ¬t.val % 8 = 0 := by omega
  rw [Cert.KernelIdeal.Value.flushed4_C m c t h0 h7]
  funext y
  obtain ⟨p, q, rfl⟩ : ∃ (p : Fin 4) (q : Fin 4096), y = ix2 p q := ⟨y 0, y 1, eq_ix2 y⟩
  show (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 : Vec Ideal S4x4096 .f32) (ix2 p q)
    = result m c (((cfg0.win 4).blk t).view.emb (ix2 p q))
  have hacc : (k0_pay3 (F := Ideal) (gslice (grid0.coords t) (outsAt0 m c (t.val - 1) (Nat.lt_of_le_of_lt (Nat.sub_le _ _) t.isLt)).2.2) (iblk m c 2 t) (outsAt0 m c (t.val - 1) (Nat.lt_of_le_of_lt (Nat.sub_le _ _) t.isLt)).2.1 : Vec Ideal S4x4096 .f32) (ix2 p q)
      = preK (Aarr m c) (Harr m c) (Warr m c) p (cpos (nOf t) q) := by
    refine Eq.trans ?_ (acc_last m c t h7 p q)
    rw [outsAt0_C m c t h0 h7]
    dsimp only
    exact (congrFun (last_acc (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h7)) (ix2 p q)).symm
  have hidx : ((cfg0.win 4).blk t).view.emb (ix2 p q) = ix2 p (cpos (nOf t) q) := by
    funext a; apply Fin.ext
    obtain ⟨-, -, -, -, -, -, -, -, e0, e1, -⟩ := idx_facts t
    match a with
    | ⟨0, _⟩ => show win0_4.index t (0 : Fin 2) * 4 + 1 * p.val = p.val; rw [e0]; omega
    | ⟨1, _⟩ => show win0_4.index t (1 : Fin 2) * 4096 + 1 * q.val = 4096 * (t.val / 8) + q.val; rw [e1]; omega
  rw [hidx]
  refine (congrFun (last_out (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h7)) (ix2 p q)).trans ?_
  refine (pay4_apply _ (iblk m c 3 t) p q).trans ?_
  rw [hacc, blk_b m c t q]
  exact congrArg (fun z => Ideal.tanh (preK (Aarr m c) (Harr m c) (Warr m c) p (cpos (nOf t) q) + z)) (b_apply m c (cpos (nOf t) q))

/-- An index of the result array is in point `t`'s block iff each coordinate is in the block's range on its axis. -/
theorem mem_blk (t : Fin cfg0.N) (i : S4x8192.Idx) :
    i ∈ ((cfg0.win 4).blk t).view.set ↔ ∀ a : Fin 2, win0_4.index t a * S4x4096.size a ≤ (i a).val ∧ (i a).val < win0_4.index t a * S4x4096.size a + S4x4096.size a := by
  show i ∈ ((View.whole main_v1).slice (win0_4.rect t)).set ↔ _
  rw [View.set_slice_whole, Rect.mem_set_unit]
  exact Iff.rfl

/-- Every index of the result array is in the block of the last point of its column block. -/
theorem cover (i : S4x8192.Idx) : ∃ t : Fin cfg0.N, (cfg0.win 4).flush t = true ∧ i ∈ ((cfg0.win 4).blk t).view.set := by
  have hi0 : (i 0).val < 4 := (i 0).isLt
  have hi1 : (i 1).val < 8192 := (i 1).isLt
  have hN : cfg0.N = 16 := N_0
  refine ⟨⟨8 * ((i 1).val / 4096) + 7, by omega⟩, (flush0_4 _).mpr (by show (8 * ((i 1).val / 4096) + 7) % 8 = 7; omega), ?_⟩
  rw [mem_blk]
  obtain ⟨-, -, -, -, -, -, -, -, e0, e1, -⟩ := idx_facts ⟨8 * ((i 1).val / 4096) + 7, by omega⟩
  intro a
  match a with
  | ⟨0, _⟩ =>
    show win0_4.index _ (0 : Fin 2) * 4 ≤ (i 0).val ∧ (i 0).val < win0_4.index _ (0 : Fin 2) * 4 + 4
    rw [e0]; omega
  | ⟨1, _⟩ =>
    show win0_4.index _ (1 : Fin 2) * 4096 ≤ (i 1).val ∧ (i 1).val < win0_4.index _ (1 : Fin 2) * 4096 + 4096
    rw [e1]; show (8 * ((i 1).val / 4096) + 7) / 8 * 4096 ≤ (i 1).val ∧ (i 1).val < (8 * ((i 1).val / 4096) + 7) / 8 * 4096 + 4096
    omega

/-- THE RESULT ARRAY after the run is the layer. -/
theorem final (c : Dev nD) : (dats m 0 c).arrAt 4 cfg0.N = result m c :=
  (dats m 0 c).arrAt_eq_of_cover 4 (result m c) (fun t hf => flushed_eq m c t hf) cover

/-- The kernel's run, read: the result at the layer `specK` of the launched arguments and the dense constant, the arguments
    unchanged. -/
theorem run : θ_run defs (onTc (τ := τ) (main (F := Ideal))) ⟨m, fun _ => 0, ρ⟩ fun r => ∀ c : Dev nD,
      r.2.mem ((c : Thread nD τ).loc main_v1)
          = arrK (Aarr m c) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1.trans (final m c)).trans (by
      show arrK (Aarr m c) (V m c main_arg1) (V m c main_arg2) (bvec m c) = _
      rw [V_main_arg1 m c, V_main_arg2 m c]), (h c).2⟩)
    (Cert.KernelIdeal.Value.run_blocks m ρ)

end Cert.KernelIdeal.KVal

end
-- ==== Proof.RefRun.lean ====
/-
  The reference's run. Its @main is thirty-one host operations in a straight line, so every weakly fair execution
  terminates with each buffer at the composition of the operations that feed it. The composition is named stage by
  stage: the three literal tables (the edges' source nodes, their target nodes, their weights), the transformed features
  `h · W`, an index vector normalised and made a column, the source rows gathered, the rows weighted, the weighted
  rows scatter-added at the target nodes into the zero array, the bias broadcast along the rows, and `tanh`.
-/
import proofs.«170293_j30769145708811_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 31 operations, in order. -/
abbrev ops : List (HloOp τ sig (Elt F)) :=
  [
    nullary main_c (fun i => lit0 (S12.rowMajor i)),
    nullary main_c_0 (fun i => lit1 (S12.rowMajor i)),
    nullary main_cst (fun i => FloatOps.ofBits .f32 (lit2 (S12.rowMajor i))),
    binary main_arg1 main_arg2 main_v0 ((fun l r => Host.dotGeneral dot_S4x8192_S8192x8192_S4x8192_1_0_0_1_n_n none l r) : (⟨S4x8192, .f32⟩ : BufTy).Contents (Elt F) → (⟨S8192x8192, .f32⟩ : BufTy).Contents (Elt F) → (⟨S4x8192, .f32⟩ : BufTy).Contents (Elt F)),
    unary main_cst main_v1 (broadcastInDim S12x1 ![0] bcast_S12_S12x1_0 : (⟨S12, .f32⟩ : BufTy).Contents (Elt F) → (⟨S12x1, .f32⟩ : BufTy).Contents (Elt F)),
    nullary main_c_1 (constantI S_ 32 0#32),
    unary main_c_1 main_v2 (broadcastInDim S12 ![] bcast_S_S12 : (⟨S_, .i32⟩ : BufTy).Contents (Elt F) → (⟨S12, .i32⟩ : BufTy).Contents (Elt F)),
    binary main_c main_v2 main_v3 (cmpi .slt : (⟨S12, .i32⟩ : BufTy).Contents (Elt F) → (⟨S12, .i32⟩ : BufTy).Contents (Elt F) → (⟨S12, .i1⟩ : BufTy).Contents (Elt F)),
    nullary main_c_2 (constantI S_ 32 4#32),
    unary main_c_2 main_v4 (broadcastInDim S12 ![] bcast_S_S12 : (⟨S_, .i32⟩ : BufTy).Contents (Elt F) → (⟨S12, .i32⟩ : BufTy).Contents (Elt F)),
    binary main_c main_v4 main_v5 (addi : (⟨S12, .i32⟩ : BufTy).Contents (Elt F) → (⟨S12, .i32⟩ : BufTy).Contents (Elt F) → (⟨S12, .i32⟩ : BufTy).Contents (Elt F)),
    ternary main_v3 main_v5 main_c main_v6 (select : (⟨S12, .i1⟩ : BufTy).Contents (Elt F) → (⟨S12, .i32⟩ : BufTy).Contents (Elt F) → (⟨S12, .i32⟩ : BufTy).Contents (Elt F) → (⟨S12, .i32⟩ : BufTy).Contents (Elt F)),
    unary main_v6 main_v7 (broadcastInDim S12x1 ![0] bcast_S12_S12x1_0 : (⟨S12, .i32⟩ : BufTy).Contents (Elt F) → (⟨S12x1, .i32⟩ : BufTy).Contents (Elt F)),
    binary main_v0 main_v7 main_v8 ((fun x i => Host.gather gather_S4x8192_S12x1_S12x8192_1_0_n_n_0_1_18192 x i) : (⟨S4x8192, .f32⟩ : BufTy).Contents (Elt F) → (⟨S12x1, .i32⟩ : BufTy).Contents (Elt F) → (⟨S12x8192, .f32⟩ : BufTy).Contents (Elt F)),
    unary main_v1 main_v9 (broadcastInDim S12x8192 ![0, 1] bcast_S12x1_S12x8192_0_1 : (⟨S12x1, .f32⟩ : BufTy).Contents (Elt F) → (⟨S12x8192, .f32⟩ : BufTy).Contents (Elt F)),
    binary main_v9 main_v8 main_v10 (mulf : (⟨S12x8192, .f32⟩ : BufTy).Contents (Elt F) → (⟨S12x8192, .f32⟩ : BufTy).Contents (Elt F) → (⟨S12x8192, .f32⟩ : BufTy).Contents (Elt F)),
    nullary main_cst_3 (constant S_ .f32 0x00000000#32),
    unary main_cst_3 main_v11 (broadcastInDim S4x8192 ![] bcast_S_S4x8192 : (⟨S_, .f32⟩ : BufTy).Contents (Elt F) → (⟨S4x8192, .f32⟩ : BufTy).Contents (Elt F)),
    nullary main_c_4 (constantI S_ 32 0#32),
    unary main_c_4 main_v12 (broadcastInDim S12 ![] bcast_S_S12 : (⟨S_, .i32⟩ : BufTy).Contents (Elt F) → (⟨S12, .i32⟩ : BufTy).Contents (Elt F)),
    binary main_c_0 main_v12 main_v13 (cmpi .slt : (⟨S12, .i32⟩ : BufTy).Contents (Elt F) → (⟨S12, .i32⟩ : BufTy).Contents (Elt F) → (⟨S12, .i1⟩ : BufTy).Contents (Elt F)),
    nullary main_c_5 (constantI S_ 32 4#32),
    unary main_c_5 main_v14 (broadcastInDim S12 ![] bcast_S_S12 : (⟨S_, .i32⟩ : BufTy).Contents (Elt F) → (⟨S12, .i32⟩ : BufTy).Contents (Elt F)),
    binary main_c_0 main_v14 main_v15 (addi : (⟨S12, .i32⟩ : BufTy).Contents (Elt F) → (⟨S12, .i32⟩ : BufTy).Contents (Elt F) → (⟨S12, .i32⟩ : BufTy).Contents (Elt F)),
    ternary main_v13 main_v15 main_c_0 main_v16 (select : (⟨S12, .i1⟩ : BufTy).Contents (Elt F) → (⟨S12, .i32⟩ : BufTy).Contents (Elt F) → (⟨S12, .i32⟩ : BufTy).Contents (Elt F) → (⟨S12, .i32⟩ : BufTy).Contents (Elt F)),
    unary main_v16 main_v17 (broadcastInDim S12x1 ![0] bcast_S12_S12x1_0 : (⟨S12, .i32⟩ : BufTy).Contents (Elt F) → (⟨S12x1, .i32⟩ : BufTy).Contents (Elt F)),
    ternary main_v11 main_v17 main_v10 main_v18 ((fun x i u => Host.scatterAdd scatter_S4x8192_S12x1_S12x8192_1_0_0_1 x i u) : (⟨S4x8192, .f32⟩ : BufTy).Contents (Elt F) → (⟨S12x1, .i32⟩ : BufTy).Contents (Elt F) → (⟨S12x8192, .f32⟩ : BufTy).Contents (Elt F) → (⟨S4x8192, .f32⟩ : BufTy).Contents (Elt F)),
    unary main_arg3 main_v19 (broadcastInDim S1x8192 ![1] bcast_S8192_S1x8192_1 : (⟨S8192, .f32⟩ : BufTy).Contents (Elt F) → (⟨S1x8192, .f32⟩ : BufTy).Contents (Elt F)),
    unary main_v19 main_v20 (broadcastInDim S4x8192 ![0, 1] bcast_S1x8192_S4x8192_0_1 : (⟨S1x8192, .f32⟩ : BufTy).Contents (Elt F) → (⟨S4x8192, .f32⟩ : BufTy).Contents (Elt F)),
    binary main_v18 main_v20 main_v21 (addf : (⟨S4x8192, .f32⟩ : BufTy).Contents (Elt F) → (⟨S4x8192, .f32⟩ : BufTy).Contents (Elt F) → (⟨S4x8192, .f32⟩ : BufTy).Contents (Elt F)),
    unary main_v21 main_v22 (Host.tanh : (⟨S4x8192, .f32⟩ : BufTy).Contents (Elt F) → (⟨S4x8192, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., unary_bufs_sub ..⟩

/-! ## The stages -/

/-- The edges' source nodes, as the words of the first literal table. -/
def srcC : IVec S12 32 := fun i => lit0 (S12.rowMajor i)
/-- The edges' target nodes, as the words of the second literal table. -/
def tgtC : IVec S12 32 := fun i => lit1 (S12.rowMajor i)
/-- The edges' weights: the float each word of the third literal table denotes. -/
def wtC : FVec F S12 .f32 := fun i => FloatOps.ofBits .f32 (lit2 (S12.rowMajor i))
/-- An index vector with its negative entries moved up by the number of nodes, as a column. -/
def normCol (c : IVec S12 32) : IVec S12x1 32 :=
  broadcastInDim S12x1 ![0] bcast_S12_S12x1_0
    (select (cmpi .slt c (broadcastInDim S12 ![] bcast_S_S12 (constantI S_ 32 0#32)))
      (addi c (broadcastInDim S12 ![] bcast_S_S12 (constantI S_ 32 4#32))) c)
/-- The transformed features `h · W`. -/
def xwA (h : FVec F S4x8192 .f32) (W : FVec F S8192x8192 .f32) : FVec F S4x8192 .f32 :=
  Host.dotGeneral dot_S4x8192_S8192x8192_S4x8192_1_0_0_1_n_n none h W
/-- Row `e`: the transformed features of edge `e`'s source node. -/
def gathered (h : FVec F S4x8192 .f32) (W : FVec F S8192x8192 .f32) : FVec F S12x8192 .f32 :=
  Host.gather gather_S4x8192_S12x1_S12x8192_1_0_n_n_0_1_18192 (xwA h W) (normCol srcC)
/-- Row `e`: edge `e`'s weight in every column. -/
def wtRows : FVec F S12x8192 .f32 :=
  broadcastInDim S12x8192 ![0, 1] bcast_S12x1_S12x8192_0_1 (broadcastInDim S12x1 ![0] bcast_S12_S12x1_0 (wtC (F := F)))
/-- Row `e`: the weighted source row of edge `e`. -/
def weighted (h : FVec F S4x8192 .f32) (W : FVec F S8192x8192 .f32) : FVec F S12x8192 .f32 :=
  mulf (wtRows (F := F)) (gathered h W)
/-- The zero array. -/
def zeroA : FVec F S4x8192 .f32 := broadcastInDim S4x8192 ![] bcast_S_S4x8192 (constant (F := F) S_ .f32 0x00000000#32)
/-- The weighted rows added into the zero array at their edges' target nodes. -/
def scattered (h : FVec F S4x8192 .f32) (W : FVec F S8192x8192 .f32) : FVec F S4x8192 .f32 :=
  Host.scatterAdd scatter_S4x8192_S12x1_S12x8192_1_0_0_1 (zeroA (F := F)) (normCol tgtC) (weighted h W)
/-- The bias in every row. -/
def biasRows (b : FVec F S8192 .f32) : FVec F S4x8192 .f32 :=
  broadcastInDim S4x8192 ![0, 1] bcast_S1x8192_S4x8192_0_1 (broadcastInDim S1x8192 ![1] bcast_S8192_S1x8192_1 b)
/-- The layer's output: `tanh` of the aggregated rows plus the bias. -/
def out (h : FVec F S4x8192 .f32) (W : FVec F S8192x8192 .f32) (b : FVec F S8192 .f32) : FVec F S4x8192 .f32 :=
  Host.tanh (addf (scattered h W) (biasRows b))

/-- On every device, from any memory with zero counters: every weakly fair execution of @main terminates with the
    result buffer at the composed stages of the three argument arrays, and the four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
          = out (F := F) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v22).trans (by after_results_simp; rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.RefRun

end
-- ==== Proof.RefGather.lean ====
/-
  The reference's gather read at an index.

  The operand is a `4 × 8192` array and the start indices a column of twelve words; the dimension numbers collapse the
  operand's row axis, take the start index as a row number and keep whole rows (slices of one row by 8192 columns). So
  result row `e` is the operand's row numbered by word `e` of the column, read as a signed integer and clamped into
  `0 … 3`; when the words are known to be node numbers the clamp does nothing.
-/
import proofs.«170293_j30769145708811_2_alg».proof.Proof.Gen.ReferenceIdeal
import Idealize.ShloMosaic.Lib.ValueIdx

noncomputable section

namespace Cert.ReferenceIdeal.RefGather

open Cert.ReferenceIdeal Cert.ReferenceIdeal.Gen Idealize.ShloMosaic Idealize.ShloMosaic.ValueIdx

/-- A node number written as a 32-bit word and read back as a signed integer is the number. -/
theorem toInt_ofNat_fin4 (q : Fin 4) : (BitVec.ofNat 32 q.val).toInt = (q.val : Int) := by fin_cases q <;> rfl

/-- Result index `(e, j)` reads its start index at `(e, 0)` of the column. -/
theorem gather_si (e : Fin 12) (j : Fin 8192)
    (c : Fin (GatherDims.startIndexMap gather_S4x8192_S12x1_S12x8192_1_0_n_n_0_1_18192).length) :
    GatherDims.siIdx gather_S4x8192_S12x1_S12x8192_1_0_n_n_0_1_18192 (ix2 e j) c = ix2 e (0 : Fin 1) := by
  funext b; refine Fin.ext ?_
  match b with
  | ⟨0, _⟩ => rfl
  | ⟨1, _⟩ =>
    have := c.isLt
    show c.val = 0
    have h1 : (GatherDims.startIndexMap gather_S4x8192_S12x1_S12x8192_1_0_n_n_0_1_18192).length = 1 := rfl
    omega

/-- THE GATHER AT `(e, j)`: column `j` of the operand's row numbered by the start index `idx[e, 0]`, read signed and
    clamped into `0 … 3`. -/
theorem gather_clamped {α : Type} (x : S4x8192.Idx → α) (idx : IVec S12x1 32) (e : Fin 12) (j : Fin 8192) :
    Host.gather gather_S4x8192_S12x1_S12x8192_1_0_n_n_0_1_18192 x idx (ix2 e j)
      = x (ix2 (⟨min (idx (ix2 e (0 : Fin 1))).toInt.toNat 3, by omega⟩ : Fin 4) j) := by
  unfold Host.gather
  congr 1
  funext a
  refine Fin.ext ?_
  match a with
  | ⟨0, _⟩ =>
    show GatherDims.start gather_S4x8192_S12x1_S12x8192_1_0_n_n_0_1_18192 (ix2 e j) idx 0
        + GatherDims.batchCoord gather_S4x8192_S12x1_S12x8192_1_0_n_n_0_1_18192 (ix2 e j) 0
        + GatherDims.offCoord gather_S4x8192_S12x1_S12x8192_1_0_n_n_0_1_18192 (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S4x8192_S12x1_S12x8192_1_0_n_n_0_1_18192
        from List.mem_singleton.mpr rfl), gather_si]
    rfl
  | ⟨1, _⟩ =>
    show GatherDims.start gather_S4x8192_S12x1_S12x8192_1_0_n_n_0_1_18192 (ix2 e j) idx 1
        + GatherDims.batchCoord gather_S4x8192_S12x1_S12x8192_1_0_n_n_0_1_18192 (ix2 e j) 1
        + GatherDims.offCoord gather_S4x8192_S12x1_S12x8192_1_0_n_n_0_1_18192 (ix2 e j) 1 = j.val
    rw [GatherDims.batchCoord_eq_zero _ _ _ List.not_mem_nil]
    have hs : GatherDims.start gather_S4x8192_S12x1_S12x8192_1_0_n_n_0_1_18192 (ix2 e j) idx 1 = 0 := by
      unfold GatherDims.start
      rw [dif_neg (by decide)]
    have ho : GatherDims.offCoord gather_S4x8192_S12x1_S12x8192_1_0_n_n_0_1_18192 (ix2 e j) 1 = j.val := by
      unfold GatherDims.offCoord
      rw [dif_pos (by decide)]
      rfl
    rw [hs, ho]; omega

/-- The gather at `(e, j)` when word `e` of the column is the node number `t e`: column `j` of the operand's row `t e`. -/
theorem gather_at {α : Type} (x : S4x8192.Idx → α) (idx : IVec S12x1 32) (t : Fin 12 → Fin 4)
    (hidx : ∀ e, idx (ix2 e (0 : Fin 1)) = BitVec.ofNat 32 (t e).val) (e : Fin 12) (j : Fin 8192) :
    Host.gather gather_S4x8192_S12x1_S12x8192_1_0_n_n_0_1_18192 x idx (ix2 e j) = x (ix2 (t e) j) := by
  rw [gather_clamped]
  refine congrArg (fun q : Fin 4 => x (ix2 q j)) (Fin.ext ?_)
  show min (idx (ix2 e (0 : Fin 1))).toInt.toNat 3 = (t e).val
  rw [hidx, toInt_ofNat_fin4, Int.toNat_natCast]
  have := (t e).isLt
  omega

end Cert.ReferenceIdeal.RefGather

end
-- ==== Proof.RefScatter.lean ====
/-
  The reference's scatter-add read at an index.

  The operand is a `4 × 8192` array, the scatter indices a column of twelve words, the updates a `12 × 8192` array; the
  dimension numbers insert the operand's row axis, take the scatter index as a row number and let an update row be a
  window of one row by 8192 columns. When word `e` of the column is the node number `t e`, update `(e, b)` lands at
  `(t e, b)`, always inside the operand. Over the extended reals the result at `(c, j)` is the operand's entry plus the
  sum of the updates landing there: one term `upd (e, j)` for every `e` with `t e = c`.
-/
import proofs.«170293_j30769145708811_2_alg».proof.Proof.RefGather
import Idealize.ShloMosaic.PureOps.Ideal

noncomputable section

open scoped BigOperators

namespace Cert.ReferenceIdeal.RefScatter

open Cert.ReferenceIdeal Cert.ReferenceIdeal.Gen Cert.ReferenceIdeal.RefGather Idealize.ShloMosaic Idealize.ShloMosaic.ValueIdx

local notation "scat" => scatter_S4x8192_S12x1_S12x8192_1_0_0_1

/-- Update index `(e, b)` reads its start index at `(e, 0)` of the column. -/
theorem scatter_si (e : Fin 12) (b : Fin 8192) (c : Fin (ScatterDims.scatterDimsToOperandDims scat).length) :
    ScatterDims.siIdx scat (ix2 e b) c = ix2 e (0 : Fin 1) := by
  funext a; refine Fin.ext ?_
  match a with
  | ⟨0, _⟩ => rfl
  | ⟨1, _⟩ =>
    have := c.isLt
    show c.val = 0
    have h1 : (ScatterDims.scatterDimsToOperandDims scat).length = 1 := rfl
    omega

section
variable (t : Fin 12 → Fin 4) (idx : IVec S12x1 32) (hidx : ∀ e, idx (ix2 e (0 : Fin 1)) = BitVec.ofNat 32 (t e).val)
include hidx

/-- On the row axis the window of update `(e, b)` starts at the node number. -/
theorem scatter_start0 (e : Fin 12) (b : Fin 8192) : ScatterDims.start scat (ix2 e b) idx 0 = ((t e).val : Int) := by
  unfold ScatterDims.start
  rw [dif_pos (show (0 : Fin 2) ∈ ScatterDims.scatterDimsToOperandDims scat from List.mem_singleton.mpr rfl), scatter_si, hidx,
    toInt_ofNat_fin4]
omit hidx in
/-- On the column axis it starts at zero. -/
theorem scatter_start1 (e : Fin 12) (b : Fin 8192) : ScatterDims.start scat (ix2 e b) idx 1 = 0 := by
  unfold ScatterDims.start
  rw [dif_neg (by decide)]
omit hidx in
/-- The row axis is inserted: no window coordinate there. -/
theorem scatter_window0 (e : Fin 12) (b : Fin 8192) : ScatterDims.window scat (ix2 e b) 0 = 0 := by
  unfold ScatterDims.window
  rw [dif_neg (by decide)]
omit hidx in
/-- The column axis carries the update's column. -/
theorem scatter_window1 (e : Fin 12) (b : Fin 8192) : ScatterDims.window scat (ix2 e b) 1 = b.val := by
  unfold ScatterDims.window
  rw [dif_pos (by decide)]
  rfl

/-- Update `(e, b)` lands at `(t e, b)`, inside the operand. -/
theorem scatter_result (e : Fin 12) (b : Fin 8192) : ScatterDims.resultIdx? scat (ix2 e b) idx = some (ix2 (t e) b) := by
  unfold ScatterDims.resultIdx?
  have h : ∀ a : Fin 2, 0 ≤ ScatterDims.start scat (ix2 e b) idx a + ScatterDims.window scat (ix2 e b) a
      ∧ ScatterDims.start scat (ix2 e b) idx a + ScatterDims.window scat (ix2 e b) a < S4x8192.size a := by
    refine Fin.forall_fin_two.mpr ⟨?_, ?_⟩
    · rw [scatter_start0 t idx hidx, scatter_window0]
      have := (t e).isLt
      show 0 ≤ ((t e).val : Int) + ((0 : Nat) : Int) ∧ ((t e).val : Int) + ((0 : Nat) : Int) < ((4 : Nat) : Int)
      omega
    · rw [scatter_start1, scatter_window1]
      have := b.isLt
      show 0 ≤ (0 : Int) + (b.val : Int) ∧ (0 : Int) + (b.val : Int) < ((8192 : Nat) : Int)
      omega
  rw [dif_pos h]
  refine congrArg some (funext (Fin.forall_fin_two.mpr ⟨Fin.ext ?_, Fin.ext ?_⟩))
  · show (ScatterDims.start scat (ix2 e b) idx 0 + ScatterDims.window scat (ix2 e b) 0).toNat = (t e).val
    rw [scatter_start0 t idx hidx, scatter_window0]; omega
  · show (ScatterDims.start scat (ix2 e b) idx 1 + ScatterDims.window scat (ix2 e b) 1).toNat = b.val
    rw [scatter_start1, scatter_window1]; omega

/-- THE SCATTER-ADD AT `(c, j)`: the operand's entry plus column `j` of every update row whose node number is `c`. -/
theorem scatter_at (x : FVec Ideal S4x8192 .f32) (upd : FVec Ideal S12x8192 .f32) (c : Fin 4) (j : Fin 8192) :
    Host.scatterAdd (F := Ideal) scat x idx upd (ix2 c j) = x (ix2 c j) + ∑ e : Fin 12, if t e = c then upd (ix2 e j) else 0 := by
  show Ideal.hostScatterAdd scat x idx upd (ix2 c j) = _
  unfold Ideal.hostScatterAdd
  congr 1
  rw [Finset.sum_filter, sum_idx2]
  refine Finset.sum_congr rfl fun e _ => ?_
  simp only [scatter_result t idx hidx]
  by_cases hc : t e = c
  · rw [if_pos hc]
    subst hc
    rw [Finset.sum_eq_single j]
    · exact if_pos rfl
    · intro b _ hb
      refine if_neg fun h => hb ?_
      exact congrFun (Option.some.inj h) 1
    · intro h; exact absurd (Finset.mem_univ j) h
  · rw [if_neg hc]
    refine Finset.sum_eq_zero fun b _ => if_neg fun h => hc ?_
    exact congrFun (Option.some.inj h) 0
end

end Cert.ReferenceIdeal.RefScatter

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«170293_j30769145708811_2_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.RefValue.lean ====
/-
  The reference's result, index by index, is the specification's second spelling of the layer.

  Stage by stage at row `c` (a node) or `e` (an edge) and column `j`: the product `h · W` at `(r, j)` is the sum over the
  contracted axis; the normalised index vectors hold the edges' source and target nodes (all in `0 … 3`, so the
  negative-index correction keeps them); the gathered row `e` is the product's row at the source node; the weight rows
  hold edge `e`'s weight in every column; the scatter-add into the zero array collects at `(c, j)` the weighted rows of
  the edges arriving at `c`; the bias is the same in every row; the add and `tanh` are pointwise.
-/
import proofs.«170293_j30769145708811_2_alg».proof.Proof.RefRun
import proofs.«170293_j30769145708811_2_alg».proof.Proof.RefScatter
import proofs.«170293_j30769145708811_2_alg».proof.Proof.Spec
import proofs.«170293_j30769145708811_2_alg».proof.Proof.LibDotColsHost
import Idealize.ShloMosaic.Lib.Pipeline.Value
import Idealize.ShloMosaic.Lib.IdealHost

noncomputable section

open scoped BigOperators

namespace Cert.ReferenceIdeal.RefValue

open Cert.ReferenceIdeal Cert.ReferenceIdeal.Gen Cert.ReferenceIdeal.RefRun Idealize.ShloMosaic Idealize.ShloMosaic.ValueIdx
open Idealize.ShloMosaic.TcCoe Idealize.SL.Sem

/-! ## The index vectors -/

/-- Word `e` of the normalised source column is edge `e`'s source node. -/
theorem src_at (e : Fin 12) : normCol srcC (ix2 e (0 : Fin 1)) = BitVec.ofNat 32 (Cert.GcnSpec.rowT e).val := by
  fin_cases e <;> rfl
/-- Word `e` of the normalised target column is edge `e`'s target node. -/
theorem tgt_at (e : Fin 12) : normCol tgtC (ix2 e (0 : Fin 1)) = BitVec.ofNat 32 (Cert.GcnSpec.colT e).val := by
  fin_cases e <;> rfl

/-! ## The product -/

/-- The reference's dimension numbers are the plain matrix product's. -/
theorem dot_eq : dot_S4x8192_S8192x8192_S4x8192_1_0_0_1_n_n = DotDims.plain 4 8192 8192 := rfl

/-- `h · W` at `(r, j)`. -/
theorem xw_at (h : FVec Ideal S4x8192 .f32) (W : FVec Ideal S8192x8192 .f32) (r : Fin 4) (j : Fin 8192) :
    xwA (F := Ideal) h W (ix2 r j) = Cert.GcnSpec.xw h W r j := by
  unfold xwA Cert.GcnSpec.xw
  exact Cert.Lib.DotColsHost.dotGeneral_cols_apply _ dot_eq none .single h W r j

/-- Row `e` of the gathered array is the product's row at edge `e`'s source node. -/
theorem gathered_at (h : FVec Ideal S4x8192 .f32) (W : FVec Ideal S8192x8192 .f32) (e : Fin 12) (j : Fin 8192) :
    gathered (F := Ideal) h W (ix2 e j) = Cert.GcnSpec.xw h W (Cert.GcnSpec.rowT e) j := by
  unfold gathered
  rw [RefGather.gather_at _ _ Cert.GcnSpec.rowT src_at, xw_at]

/-! ## The broadcasts -/

/-- Row `e` of the weight rows holds edge `e`'s weight. -/
theorem wt_at (e : Fin 12) (j : Fin 8192) : wtRows (F := Ideal) (ix2 e j) = Cert.GcnSpec.nrmT e := by
  unfold wtRows
  rw [broadcastInDim_apply _ _ _ (ix2 e j) (ix2 e (0 : Fin 1)) (fun a => match a with | ⟨0, _⟩ => rfl | ⟨1, _⟩ => rfl),
    broadcastInDim_apply _ _ _ (ix2 e (0 : Fin 1)) (ix1 e) (fun a => match a with | ⟨0, _⟩ => rfl)]
  show Ideal.ofBits .f32 (lit2 (S12.rowMajor (ix1 e))) = Ideal.ofBits .f32 (Cert.GcnSpec.nrmW e)
  refine congrArg (Ideal.ofBits .f32) ?_
  fin_cases e <;> rfl

/-- Every row of the bias rows is the bias. -/
theorem bias_at (b : FVec Ideal S8192 .f32) (c : Fin 4) (j : Fin 8192) : biasRows (F := Ideal) b (ix2 c j) = b (ix1 j) := by
  unfold biasRows
  rw [broadcastInDim_apply _ _ _ (ix2 c j) (ix2 (0 : Fin 1) j) (fun a => match a with | ⟨0, _⟩ => rfl | ⟨1, _⟩ => rfl),
    broadcastInDim_apply _ _ _ (ix2 (0 : Fin 1) j) (ix1 j) (fun a => match a with | ⟨0, _⟩ => rfl)]

/-- The zero array is zero. -/
theorem zero_at (c : Fin 4) (j : Fin 8192) : zeroA (F := Ideal) (ix2 c j) = 0 := by
  unfold zeroA
  rw [broadcastInDim_scalar_apply]
  exact Ideal.ofBits_zero_f32

/-! ## The result -/

/-- The scattered sum at `(c, j)`: zero plus the weighted source rows of the edges arriving at `c`. -/
theorem scattered_at (h : FVec Ideal S4x8192 .f32) (W : FVec Ideal S8192x8192 .f32) (c : Fin 4) (j : Fin 8192) :
    scattered (F := Ideal) h W (ix2 c j) = Cert.GcnSpec.preR h W c j := by
  unfold scattered Cert.GcnSpec.preR
  rw [RefScatter.scatter_at Cert.GcnSpec.colT _ tgt_at, zero_at]
  refine congrArg (fun s : EReal => 0 + s) (Finset.sum_congr rfl fun e _ => ?_)
  have hw : weighted (F := Ideal) h W (ix2 e j) = Cert.GcnSpec.nrmT e * Cert.GcnSpec.xw h W (Cert.GcnSpec.rowT e) j := by
    show wtRows (F := Ideal) (ix2 e j) * gathered (F := Ideal) h W (ix2 e j) = _
    rw [wt_at, gathered_at]
  rw [hw]

/-- The reference's composed result at `(c, j)` is the specification's. -/
theorem out_at (h : FVec Ideal S4x8192 .f32) (W : FVec Ideal S8192x8192 .f32) (b : FVec Ideal S8192 .f32) (c : Fin 4) (j : Fin 8192) :
    out (F := Ideal) h W b (ix2 c j) = Cert.GcnSpec.specR h W b c j := by
  show Ideal.tanh (scattered (F := Ideal) h W (ix2 c j) + biasRows (F := Ideal) b (ix2 c j)) = _
  rw [scattered_at, bias_at]
  rfl

/-- The reference's composed result is the specification's array. -/
theorem out_eq (h : FVec Ideal S4x8192 .f32) (W : FVec Ideal S8192x8192 .f32) (b : FVec Ideal S8192 .f32) :
    out (F := Ideal) h W b = Cert.GcnSpec.arrR h W b := by
  funext i
  obtain ⟨p, q, rfl⟩ : ∃ (p : Fin 4) (q : Fin 8192), i = ix2 p q := ⟨i 0, i 1, eq_ix2 i⟩
  exact out_at h W b p q

/-- On every device, from any memory with zero counters: every weakly fair execution of the reference terminates with
    its result the specification's array of the three argument arrays, and the four arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22)
          = Cert.GcnSpec.arrR (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c => ⟨(h c).1.trans (out_eq _ _ _), (h c).2⟩) (RefRun.run (F := Ideal) m ρ)

end Cert.ReferenceIdeal.RefValue

end
-- ==== Proof.LibRealSums.lean ====
/-
  Finite sums of real numbers inside the extended reals, and a quotient moved across such a sum.

  General facts, with no program in sight: `Fin' x` says that the extended real `x` is a real; a finite sum and a sum of two such are
  again real (`fin'_sum`, `fin'_add`), the coercion of a finite real sum is the sum of the coercions (`coe_sum`), the inverse of any
  extended real is a real (`fin'_inv`), and `div_sum_mul`: for real `a c`, `h c` and any `D ≠ 0`,
  `(∑ c, a c · h c) / D = ∑ c, (a c / D) · h c` for the extended reals' own division.  The use: a row normalised before a
  matrix product against the same row normalised after it.

  One program divides every entry of a row of `a` by the row's total `D` and then takes the row's inner product with a
  column of `h`; the other takes the inner product first and divides once.  On the extended reals a quotient by a nonzero
  `D` is the product with the inverse of `D`, which is always a real, and a real factor moves across a finite sum of REAL
  terms — but not across a sum that may hold both infinities, which is why every entry of `a` and `h` is asked to be a real here.
  (Division by zero is not a product at all on the extended reals, hence `D ≠ 0`.)
-/
import Idealize.ShloMosaic.PureOps.Ideal

noncomputable section

open scoped BigOperators

namespace Cert.Lib.RealSums

open Idealize.ShloMosaic

/-- "Neither infinity": the extended real is a real number. -/
def Fin' (x : EReal) : Prop := x ≠ ⊤ ∧ x ≠ ⊥

theorem Fin'.exists_real {x : EReal} (h : Fin' x) : ∃ r : ℝ, x = (r : EReal) :=
  ⟨x.toReal, (EReal.coe_toReal h.1 h.2).symm⟩

theorem fin'_coe (r : ℝ) : Fin' (r : EReal) := ⟨EReal.coe_ne_top r, EReal.coe_ne_bot r⟩

/-- The coercion of a finite sum of reals is the sum of the coercions. -/
theorem coe_sum {ι : Type*} (s : Finset ι) (f : ι → ℝ) : ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- A finite sum of reals is a real. -/
theorem fin'_sum {ι : Type*} (s : Finset ι) (a : ι → EReal) (ha : ∀ c, Fin' (a c)) : Fin' (∑ c ∈ s, a c) := by
  choose a' ha' using fun c => (ha c).exists_real
  have : (∑ c ∈ s, a c) = ((∑ c ∈ s, a' c : ℝ) : EReal) := by
    rw [coe_sum]; exact Finset.sum_congr rfl fun c _ => ha' c
  rw [this]; exact fin'_coe _

theorem fin'_add {x y : EReal} (hx : Fin' x) (hy : Fin' y) : Fin' (x + y) := by
  obtain ⟨a, rfl⟩ := hx.exists_real
  obtain ⟨b, rfl⟩ := hy.exists_real
  rw [← EReal.coe_add]; exact fin'_coe _

theorem fin'_zero : Fin' (0 : EReal) := by
  rw [← EReal.coe_zero]; exact fin'_coe _

/-- The inverse of an extended real is never an infinity (the inverses of both infinities, and of zero, are zero). -/
theorem fin'_inv (D : EReal) : Fin' D⁻¹ := by
  induction D using EReal.rec
  · rw [EReal.inv_bot]; exact fin'_zero
  · rw [← EReal.coe_inv]; exact fin'_coe _
  · rw [EReal.inv_top]; exact fin'_zero

/-- THE LAW. For real entries and a nonzero divisor, dividing the inner product is the inner product of the divided entries:
    off zero a quotient is the product with the divisor's inverse, which is a real, and a real factor moves across a sum of reals. -/
theorem div_sum_mul {ι : Type*} (s : Finset ι) (a h : ι → EReal) (D : EReal)
    (ha : ∀ c, Fin' (a c)) (hh : ∀ c, Fin' (h c)) (hD0 : D ≠ 0) :
    Ideal.div (∑ c ∈ s, a c * h c) D = ∑ c ∈ s, Ideal.div (a c) D * h c := by
  obtain ⟨e, he⟩ := (fin'_inv D).exists_real
  choose a' ha' using fun c => (ha c).exists_real
  choose h' hh' using fun c => (hh c).exists_real
  have e1 : (∑ c ∈ s, a c * h c) = ((∑ c ∈ s, a' c * h' c : ℝ) : EReal) := by
    rw [coe_sum]; exact Finset.sum_congr rfl fun c _ => by rw [ha' c, hh' c, EReal.coe_mul]
  have e2 : (∑ c ∈ s, Ideal.div (a c) D * h c) = ((∑ c ∈ s, a' c * e * h' c : ℝ) : EReal) := by
    rw [coe_sum]
    exact Finset.sum_congr rfl fun c _ => by rw [Ideal.div, if_neg hD0, he, ha' c, hh' c, EReal.coe_mul, EReal.coe_mul]
  rw [e1, e2, Ideal.div, if_neg hD0, he, ← EReal.coe_mul, Finset.sum_mul]
  exact congrArg _ (Finset.sum_congr rfl fun c _ => by ring)

end Cert.Lib.RealSums

end
-- ==== Proof.BridgeReal.lean ====
/-
  The real-number algebra behind the two spellings of the graph-convolution layer.

  Three facts, none of which mentions a float or an infinity:
  * `sum_tiles`: the contracted axis of 8192 positions is the disjoint union of eight consecutive tiles of 1024, position
    `1024·s + k` being entry `k` of tile `s`; so a sum tile by tile is the sum over the whole axis (any commutative monoid).
  * `sum_mul_assoc`: `∑ k, (∑ r, a r · h r k) · w k = ∑ r, a r · (∑ k, h r k · w k)`: a matrix product may be bracketed either way.
  * `sum_dense_eq_sum_edges`: when the dense weight `a r` is the total weight of the edges `e` with `col e = c` and `row e = r`,
    the dense row sum `∑ r, a r · x r` is the sum over the edges arriving at `c` of weight times `x` at the edge's source.
  `layer_real` chains them: the tiled aggregate-then-transform sum equals the transform-then-aggregate edge sum.
-/
import Mathlib.Algebra.BigOperators.Ring.Finset
import Mathlib.Algebra.BigOperators.Fin
import Mathlib.Data.Real.Basic
import proofs.«170293_j30769145708811_2_alg».proof.Proof.Spec

open scoped BigOperators

namespace Cert.GcnSpec

/-- The eight tiles of 1024 positions partition the 8192 positions: `(s, k) ↦ 1024·s + k` with inverse `i ↦ (i / 1024, i % 1024)`. -/
def tileEquiv : Fin 8 × Fin 1024 ≃ Fin 8192 where
  toFun p := kpos p.1 p.2
  invFun i := (⟨i.val / 1024, by have := i.isLt; omega⟩, ⟨i.val % 1024, by omega⟩)
  left_inv := by
    rintro ⟨s, k⟩
    have hs := s.isLt; have hk := k.isLt
    refine Prod.ext (Fin.ext ?_) (Fin.ext ?_)
    · show (1024 * s.val + k.val) / 1024 = s.val; omega
    · show (1024 * s.val + k.val) % 1024 = k.val; omega
  right_inv := by
    intro i
    refine Fin.ext ?_
    show 1024 * (i.val / 1024) + i.val % 1024 = i.val; omega

/-- A sum taken tile by tile is the sum over the whole contracted axis. -/
theorem sum_tiles {M : Type*} [AddCommMonoid M] (F : Fin 8192 → M) :
    ∑ s : Fin 8, ∑ k : Fin 1024, F (kpos s k) = ∑ i : Fin 8192, F i := by
  rw [← Equiv.sum_comp tileEquiv F, Fintype.sum_prod_type]
  rfl

/-- A product of three matrices read at one entry, bracketed either way. -/
theorem sum_mul_assoc {ι κ : Type*} [Fintype ι] [Fintype κ] (a : ι → ℝ) (h : ι → κ → ℝ) (w : κ → ℝ) :
    ∑ k, (∑ r, a r * h r k) * w k = ∑ r, a r * ∑ k, h r k * w k := by
  calc ∑ k, (∑ r, a r * h r k) * w k
      = ∑ k, ∑ r, a r * (h r k * w k) := by
        refine Finset.sum_congr rfl fun k _ => ?_
        rw [Finset.sum_mul]
        exact Finset.sum_congr rfl fun r _ => by ring
    _ = ∑ r, ∑ k, a r * (h r k * w k) := Finset.sum_comm
    _ = ∑ r, a r * ∑ k, h r k * w k := by
        refine Finset.sum_congr rfl fun r _ => ?_
        rw [Finset.mul_sum]

/-- A dense row against a vector, as a sum over the edges arriving at `c`: the dense weight at source `r` is the total weight of
    the edges from `r` to `c`, and summing over `r` first picks each arriving edge exactly once, at its own source. -/
theorem sum_dense_eq_sum_edges {E C R : Type*} [Fintype E] [Fintype R] [DecidableEq C] [DecidableEq R]
    (col : E → C) (row : E → R) (n : E → ℝ) (c : C) (a : R → ℝ)
    (ha : ∀ r, a r = ∑ e, if col e = c ∧ row e = r then n e else 0) (x : R → ℝ) :
    ∑ r, a r * x r = ∑ e, if col e = c then n e * x (row e) else 0 := by
  calc ∑ r, a r * x r
      = ∑ r, ∑ e, if col e = c ∧ row e = r then n e * x r else 0 := by
        refine Finset.sum_congr rfl fun r _ => ?_
        rw [ha r, Finset.sum_mul]
        exact Finset.sum_congr rfl fun e _ => by split_ifs <;> simp
    _ = ∑ e, ∑ r, if col e = c ∧ row e = r then n e * x r else 0 := Finset.sum_comm
    _ = ∑ e, if col e = c then n e * x (row e) else 0 := by
        refine Finset.sum_congr rfl fun e _ => ?_
        by_cases hc : col e = c
        · simp only [hc, true_and, if_true]
          rw [Finset.sum_ite_eq Finset.univ (row e) (fun r => n e * x r)]
          simp
        · simp [hc]

/-- The layer's pre-activation at node `c`, column `j` fixed (`w k` is column `j` of the transform matrix): aggregating first and
    contracting tile by tile gives what transforming first and summing along the arriving edges gives. -/
theorem layer_real (a : Fin 4 → ℝ) (h : Fin 4 → Fin 8192 → ℝ) (w : Fin 8192 → ℝ) (n : Fin 12 → ℝ) (c : Fin 4)
    (ha : ∀ r, a r = ∑ e, if colT e = c ∧ rowT e = r then n e else 0) :
    ∑ s : Fin 8, ∑ k : Fin 1024, (∑ r, a r * h r (kpos s k)) * w (kpos s k)
      = ∑ e : Fin 12, if colT e = c then n e * (∑ k, h (rowT e) k * w k) else 0 := by
  rw [sum_tiles (fun i => (∑ r, a r * h r i) * w i), sum_mul_assoc a h w]
  exact sum_dense_eq_sum_edges colT rowT n c a ha (fun r => ∑ k, h r k * w k)

end Cert.GcnSpec
-- ==== Proof.BridgeWords.lean ====
/-
  The float constants of the layer, as far as the algebra needs them: each is a REAL number, and the dense weight matrix is the
  edge list written out.

  * `ofBits_f32_real`: a 32-bit float word denotes an infinity (or junk) only when its eight exponent bits are all ones; any other
    word is a zero, a subnormal or a normal number, hence a real. No word's decimal value is computed.
  * `nrmW_exp`, `aW_exp`: none of the twelve edge weights, and none of the sixteen dense entries, has an all-ones exponent field
    (a finite check on the words' bits).
  * `dense_eq_edges`: entry `(c, r)` of the dense matrix is the sum, over the twelve edges, of the weights of the edges from `r` to
    `c`. Each ordered pair of nodes carries at most one edge, so in each of the sixteen cases at most one of the twelve terms is
    not zero, and it is the same word as the dense entry; where no edge exists the dense entry is the zero word, which denotes 0.
-/
import Idealize.ShloMosaic.PureOps.Ideal.Laws
import proofs.«170293_j30769145708811_2_alg».proof.Proof.Spec

open scoped BigOperators

namespace Cert.GcnSpec

open Idealize.ShloMosaic Idealize.ShloMosaic.ValueIdx

/-- A 32-bit float word whose exponent field is not all ones denotes a real number. -/
theorem ofBits_f32_real (b : BitVec 32) (hb : (b.extractLsb' 23 8).toNat ≠ 2 ^ 8 - 1) :
    ∃ x : ℝ, Ideal.ofBits .f32 b = (x : EReal) := by
  unfold Ideal.ofBits Ideal.ieee
  simp only [if_neg hb]
  split_ifs <;> exact ⟨_, rfl⟩

/-- No edge weight has an all-ones exponent field. -/
theorem nrmW_exp : ∀ e : Fin 12, ((nrmW e).extractLsb' 23 8).toNat ≠ 2 ^ 8 - 1 := by decide

/-- No dense entry has an all-ones exponent field. -/
theorem aW_exp : ∀ c r : Fin 4, ((aW c r).extractLsb' 23 8).toNat ≠ 2 ^ 8 - 1 := by decide

/-- Every edge weight is a real number. -/
theorem nrmT_real (e : Fin 12) : ∃ x : ℝ, nrmT e = (x : EReal) := ofBits_f32_real (nrmW e) (nrmW_exp e)

/-- Every dense entry is a real number. -/
theorem aW_real (c r : Fin 4) : ∃ x : ℝ, Ideal.ofBits .f32 (aW c r) = (x : EReal) := ofBits_f32_real (aW c r) (aW_exp c r)

/-- The dense matrix is the edge list written out: entry `(c, r)` is the total weight of the edges from `r` to `c`. -/
theorem dense_eq_edges (c r : Fin 4) :
    Ideal.ofBits .f32 (aW c r) = ∑ e : Fin 12, if colT e = c ∧ rowT e = r then nrmT e else 0 := by
  fin_cases c <;> fin_cases r <;>
    simp [aW, nrmT, nrmW, colT, rowT, Fin.sum_univ_succ, Ideal.ofBits_zero_f32]

end Cert.GcnSpec
-- ==== Proof.Bridge.lean ====
/-
  The two spellings of the graph-convolution layer agree on real inputs.

  `specK` aggregates first (`g = A · h`) and contracts `g · W` over eight tiles of the contracted axis; `specR` transforms first
  (`xw = h · W`) and sums weight times source row over the edges arriving at a node. Bias and `tanh` are applied the same way by
  both, so only the pre-activations are compared, and the bias needs no hypothesis.

  On the extended reals a product does not distribute over a sum that may hold both infinities, so the comparison is made in ℝ:
  every entry of `h` and `W` is a real by hypothesis, every weight constant is a real because its float word has no all-ones
  exponent field, and a finite sum of products of reals is the coercion of the real sum of products. Both pre-activations are
  thereby coercions of real numbers, and the two real numbers are equal by the companion module's identity (regroup the tiles,
  re-bracket the triple product, replace the dense row by the edge list).
-/
import proofs.«170293_j30769145708811_2_alg».proof.Proof.Spec
import proofs.«170293_j30769145708811_2_alg».proof.Proof.LibRealSums
import proofs.«170293_j30769145708811_2_alg».proof.Proof.BridgeReal
import proofs.«170293_j30769145708811_2_alg».proof.Proof.BridgeWords

open scoped BigOperators

namespace Cert.GcnSpec

open Idealize.ShloMosaic Idealize.ShloMosaic.ValueIdx Cert.Lib.RealSums

/-- The pre-activations agree: both are the coercion of one real number. -/
theorem preK_eq_preR (A : (⟨2, ![4, 4]⟩ : Shape).Idx → EReal) (h : (⟨2, ![4, 8192]⟩ : Shape).Idx → EReal)
    (W : (⟨2, ![8192, 8192]⟩ : Shape).Idx → EReal)
    (hA : ∀ c r : Fin 4, A (ix2 c r) = Ideal.ofBits .f32 (aW c r))
    (hh : ∀ i, h i ≠ ⊤ ∧ h i ≠ ⊥) (hW : ∀ i, W i ≠ ⊤ ∧ W i ≠ ⊥) (c : Fin 4) (j : Fin 8192) :
    preK A h W c j = preR h W c j := by
  -- real witnesses for the entries and for the constants
  choose h' hh' using fun i => Fin'.exists_real (x := h i) (hh i)
  choose W' hW' using fun i => Fin'.exists_real (x := W i) (hW i)
  choose a ha using aW_real
  choose n hn using nrmT_real
  -- the dense matrix is the edge list, now between real numbers
  have hta : ∀ r, a c r = ∑ e, if colT e = c ∧ rowT e = r then n e else 0 := by
    intro r
    apply EReal.coe_injective
    rw [← ha c r, dense_eq_edges c r, coe_sum]
    refine Finset.sum_congr rfl fun e _ => ?_
    split_ifs
    · exact hn e
    · exact EReal.coe_zero.symm
  -- the tiled spelling is the coercion of the real tiled sum
  have hK : preK A h W c j
      = ((∑ s : Fin 8, ∑ k : Fin 1024, (∑ r, a c r * h' (ix2 r (kpos s k))) * W' (ix2 (kpos s k) j) : ℝ) : EReal) := by
    unfold preK tile agg
    rw [coe_sum]
    refine Finset.sum_congr rfl fun s _ => ?_
    rw [coe_sum]
    refine Finset.sum_congr rfl fun k _ => ?_
    rw [EReal.coe_mul, coe_sum, ← hW']
    refine congrArg (· * W (ix2 (kpos s k) j)) (Finset.sum_congr rfl fun r _ => ?_)
    rw [EReal.coe_mul, ← ha, ← hh', hA]
  -- the edge spelling is the coercion of the real edge sum
  have hR : preR h W c j
      = ((∑ e : Fin 12, if colT e = c then n e * (∑ k, h' (ix2 (rowT e) k) * W' (ix2 k j)) else 0 : ℝ) : EReal) := by
    unfold preR xw
    rw [zero_add, coe_sum]
    refine Finset.sum_congr rfl fun e _ => ?_
    split_ifs
    · rw [EReal.coe_mul, coe_sum, ← hn e]
      refine congrArg (nrmT e * ·) (Finset.sum_congr rfl fun k _ => ?_)
      rw [EReal.coe_mul, ← hh', ← hW']
    · exact EReal.coe_zero.symm
  rw [hK, hR]
  exact congrArg _ (layer_real (a c) (fun r k => h' (ix2 r k)) (fun k => W' (ix2 k j)) n c hta)

/-- The two spellings of the layer agree at every node and feature, for real `h` and `W`. -/
theorem specK_eq_specR (A : (⟨2, ![4, 4]⟩ : Shape).Idx → EReal) (h : (⟨2, ![4, 8192]⟩ : Shape).Idx → EReal)
    (W : (⟨2, ![8192, 8192]⟩ : Shape).Idx → EReal) (b : (⟨1, ![8192]⟩ : Shape).Idx → EReal)
    (hA : ∀ c r : Fin 4, A (ix2 c r) = Ideal.ofBits .f32 (aW c r))
    (hh : ∀ i, h i ≠ ⊤ ∧ h i ≠ ⊥) (hW : ∀ i, W i ≠ ⊤ ∧ W i ≠ ⊥) (c : Fin 4) (j : Fin 8192) :
    specK A h W b c j = specR h W b c j := by
  unfold specK specR
  rw [preK_eq_preR A h W hA hh hW c j]

/-- The two spellings agree as arrays. -/
theorem arrK_eq_arrR (A : (⟨2, ![4, 4]⟩ : Shape).Idx → EReal) (h : (⟨2, ![4, 8192]⟩ : Shape).Idx → EReal)
    (W : (⟨2, ![8192, 8192]⟩ : Shape).Idx → EReal) (b : (⟨1, ![8192]⟩ : Shape).Idx → EReal)
    (hA : ∀ c r : Fin 4, A (ix2 c r) = Ideal.ofBits .f32 (aW c r))
    (hh : ∀ i, h i ≠ ⊤ ∧ h i ≠ ⊥) (hW : ∀ i, W i ≠ ⊤ ∧ W i ≠ ⊥) :
    arrK A h W b = arrR h W b := by
  funext i
  obtain ⟨c, j, rfl⟩ : ∃ (c : Fin 4) (j : Fin 8192), i = ix2 c j := ⟨i 0, i 1, eq_ix2 i⟩
  rw [arrK_ix2, arrR_ix2]
  exact specK_eq_specR A h W b hA hh hW c j

end Cert.GcnSpec
-- ==== Proof.Finite.lean ====
/-
  What the precondition says of the inputs: every entry of the features `h` and of the transform matrix `W` is a real number.

  The precondition is the conjunction, over the four float inputs, of "every entry `x` satisfies `|x| < +∞`", each conjunct a
  reduction by `and` of the elementwise comparisons. A reduction by `and` over all axes that came out true had a true comparison
  at every entry. On the extended reals `|x| = max x (-x)`, and the float word `0x7F800000` denotes `⊤`; `max x (-x) < ⊤` fails at
  both infinities (each has absolute value `⊤`), so it leaves exactly the reals.
-/
import Idealize.ShloMosaic.Lib.ReduceAll
import Idealize.ShloMosaic.Lib.ValueIdx
import Idealize.ShloMosaic.PureOps.Ideal
import proofs.«170293_j30769145708811_2_alg».proof.Pre_finite_inputs
import proofs.«170293_j30769145708811_2_alg».proof.Proof.Gen.Pre_finite_inputs

noncomputable section

namespace Cert.GcnFinite

open Idealize.ShloMosaic

/-- The shape with no axes has one index. -/
instance : Subsingleton Cert.Pre_finite_inputs.S_.Idx := ⟨fun a b => funext fun d => d.elim0⟩

/-- The word of positive infinity denotes `⊤`. -/
theorem ofBits_inf : Ideal.ofBits .f32 0x7F800000#32 = ⊤ := by simp [Ideal.ofBits, Ideal.ieee]

/-- An extended real whose absolute value is below `+∞` is a real number. -/
theorem real_of_abs_lt_inf (x : EReal)
    (hx : Ideal.cmp .olt (max x (-x)) (Ideal.ofBits .f32 0x7F800000#32) = 1#1) : x ≠ ⊤ ∧ x ≠ ⊥ := by
  rw [ofBits_inf] at hx
  unfold Ideal.cmp at hx
  induction x using EReal.rec
  · simp at hx
  · exact ⟨EReal.coe_ne_top _, EReal.coe_ne_bot _⟩
  · simp at hx

/-- The precondition decoded: every entry of `h` and of `W` is a real number. -/
theorem finite_of_pre (t : FVec Ideal Cert.Pre_finite_inputs.S1 .f32) (h : FVec Ideal Cert.Pre_finite_inputs.S4x8192 .f32)
    (W : FVec Ideal Cert.Pre_finite_inputs.S8192x8192 .f32) (b : FVec Ideal Cert.Pre_finite_inputs.S8192 .f32)
    (hp : Cert.Pre_finite_inputs.fn (F := Ideal) t h W b = fun _ => 1#1) :
    (∀ i, (h i : EReal) ≠ ⊤ ∧ (h i : EReal) ≠ ⊥) ∧ (∀ i, (W i : EReal) ≠ ⊤ ∧ (W i : EReal) ≠ ⊥) := by
  have e := congrFun hp ValueIdx.ix0
  dsimp only [Cert.Pre_finite_inputs.fn, Cert.Pre_finite_inputs.fn_part1] at e
  simp only [andi, IntOp.andi_eq_one] at e
  obtain ⟨⟨⟨-, eh⟩, eW⟩, -⟩ := e
  exact ⟨fun i => real_of_abs_lt_inf (h i) (Host.reduce_andi_all _ _ _ _ _ eh i),
    fun i => real_of_abs_lt_inf (W i) (Host.reduce_andi_all _ _ _ _ _ eW i)⟩

end Cert.GcnFinite

end
-- ==== Proof.lean ====
/-
  One graph-convolution layer on a fixed four-node graph, `tanh (A · (h · W) + b)`, computed two ways that agree over the
  extended reals on finite inputs.

  The kernel aggregates first: it forms `g = A · h` with the dense 4×4 normalised adjacency `A` (a float constant), multiplies
  `g` by `W` accumulating over eight tiles of the contracted axis, adds the bias and applies `tanh`, one column block of the
  result at a time. The reference transforms first: `xw = h · W`, then for every node the weighted rows of `xw` along the twelve
  edges arriving there are added into a zero array (a gather, a product with the edge weights, a scatter-add), then the bias
  and `tanh`. Every ordered pair of nodes carries at most one edge, so `A`'s entries are the edge weights themselves, the same
  float words in both programs, and the two results are the same sums of the same products taken in another order: equal as
  soon as every entry of `h` and `W` is a real number, which the precondition gives (on the extended reals a factor does not
  move across a sum that may hold both infinities, so the finiteness is used). The bias and `tanh` are applied alike by both.

  The three frames: the kernel's two printed forms run to completion with their arguments unchanged (their generated frame
  certificates), and the reference's run (its thirty-one host operations composed) leaves its arguments unchanged as well.
  The idealisation rewrote no operation of the kernel, so there is nothing for it to preserve.
-/
import proofs.«170293_j30769145708811_2_alg».proof.Defs
import proofs.«170293_j30769145708811_2_alg».proof.Proof.Gen.Kernel
import proofs.«170293_j30769145708811_2_alg».proof.Proof.Gen.Kernel.Skeleton
import proofs.«170293_j30769145708811_2_alg».proof.Proof.Gen.Kernel.Launch
import proofs.«170293_j30769145708811_2_alg».proof.Proof.Gen.Kernel.Points
import proofs.«170293_j30769145708811_2_alg».proof.Proof.Gen.Kernel.Frame
import proofs.«170293_j30769145708811_2_alg».proof.Proof.Gen.KernelIdeal
import proofs.«170293_j30769145708811_2_alg».proof.Proof.Gen.KernelIdeal.Skeleton
import proofs.«170293_j30769145708811_2_alg».proof.Proof.Gen.KernelIdeal.Launch
import proofs.«170293_j30769145708811_2_alg».proof.Proof.Gen.KernelIdeal.Points
import proofs.«170293_j30769145708811_2_alg».proof.Proof.Gen.KernelIdeal.Frame
import proofs.«170293_j30769145708811_2_alg».proof.Proof.Gen.KernelIdeal.Value
import proofs.«170293_j30769145708811_2_alg».proof.Proof.Gen.ReferenceIdeal
import proofs.«170293_j30769145708811_2_alg».proof.Proof.Gen.Pre_finite_inputs
import proofs.«170293_j30769145708811_2_alg».proof.Proof.KFinal
import proofs.«170293_j30769145708811_2_alg».proof.Proof.RefValue
import proofs.«170293_j30769145708811_2_alg».proof.Proof.Bridge
import proofs.«170293_j30769145708811_2_alg».proof.Proof.Finite
import Idealize.ShloMosaic.Adequacy
import Idealize.ShloMosaic.Init

noncomputable section

namespace Cert.Proof

open Idealize.ShloMosaic Idealize.SL.Sem

/-- The kernel as printed runs to completion, its arguments unchanged. -/
theorem frame_k : Cert.frame_Kernel := fun m ρ _ => Cert.Kernel.Gen.frame m ρ

/-- So does its idealised form. -/
theorem frame_ki : Cert.frame_KernelIdeal := fun m ρ _ => Cert.KernelIdeal.Gen.frame m ρ

/-- The reference's run, with its result dropped: the arguments unchanged. -/
theorem frame_ri : Cert.frame_ReferenceIdeal := fun m ρ _ =>
  (θ_run Cert.ReferenceIdeal.defs _ _).mono (fun _ h c => (h c).2) (Cert.ReferenceIdeal.RefValue.run m ρ)

/-- No operation of the kernel was rewritten. -/
theorem preserves : Cert.preserves_Kernel_KernelIdeal := trivial

/-- Over the extended reals the kernel's result is the layer with the aggregation done first and the reference's is the layer
    with the transformation done first, of arguments that agree; on real inputs the two are one function. -/
theorem algebraic : Cert.algebraic_KernelIdeal_ReferenceIdeal := by
  intro m ρ m' ρ' hpre hagree
  refine ⟨fun c => Cert.GcnSpec.arrK (Cert.KernelIdeal.KVal.Aarr m c)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KVal.run m ρ, ?_⟩
  refine (θ_run Cert.ReferenceIdeal.defs _ _).mono (fun _ h c => ⟨(h c).1.trans ?_, (h c).2⟩)
    (Cert.ReferenceIdeal.RefValue.run m' ρ')
  rw [(hagree c).2.1, (hagree c).2.2.1, (hagree c).2.2.2]
  obtain ⟨hh, hW⟩ := Cert.GcnFinite.finite_of_pre _ _ _ _ (hpre c)
  exact (Cert.GcnSpec.arrK_eq_arrR _ _ _ _ (Cert.KernelIdeal.KVal.A_apply m c) hh hW).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
